-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16x4096x1024 : Shape := ⟨3, ![16, 4096, 1024]⟩
abbrev S16 : Shape := ⟨1, ![16]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x4096x1024 .f32) (main_arg1 : IVec S16 32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_c_0 : IVec S_ 32 := constantI S_ 32 1#32
  let main_v4 : IVec S16 32 := broadcastInDim S16 ![] bcast_S_S16 main_c_0
  let main_v5 : IVec S16 1 := cmpi .sge main_arg1 main_v4
  let main_c_1 : IVec S_ 32 := constantI S_ 32 4096#32
  let main_v6 : IVec S16 32 := broadcastInDim S16 ![] bcast_S_S16 main_c_1
  let main_v7 : IVec S16 1 := cmpi .sle main_arg1 main_v6
  let main_v8 : IVec S16 1 := andi main_v5 main_v7
  let main_c_2 : IVec S_ 1 := constantI S_ 1 1#1
  let main_v9 : IVec S_ 1 := (fun x v => Host.reduce IntOp.andi x v reducesTo_S16_S_d0 h_S_) main_v8 main_c_2
  let main_v10 : IVec S_ 1 := andi main_v3 main_v9
  main_v10
-- ==== Kernel.lean ====
abbrev S16x4096x1024 : Shape := ⟨3, ![16, 4096, 1024]⟩
abbrev S16 : Shape := ⟨1, ![16]⟩
abbrev S16x1024 : Shape := ⟨2, ![16, 1024]⟩
abbrev S_ : Shape := ⟨0, ![]⟩
abbrev S1 : Shape := ⟨1, ![1]⟩
abbrev S1x1024 : Shape := ⟨2, ![1, 1024]⟩
abbrev S1x1x1024 : Shape := ⟨3, ![1, 1, 1024]⟩

abbrev nBuf : Table → Nat
  | .hbm => 3
  | .local .scScalar .smem => 1
  | _ => 0

abbrev bufTy : (tb : Table) → Fin (nBuf tb) → BufTy
  | .hbm, ⟨0, _⟩ => ⟨S16x4096x1024, .f32⟩
  | .hbm, ⟨1, _⟩ => ⟨S16, .i32⟩
  | .hbm, ⟨2, _⟩ => ⟨S16x1024, .f32⟩
  | .local .scScalar .smem, ⟨0, _⟩ => ⟨S16, .i32⟩
  | _, _ => ⟨S16x4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scs : Ref sig .scScalar := ⟨.hbm, 0, rfl⟩
abbrev main_arg1_scs : Ref sig .scScalar := ⟨.hbm, 1, rfl⟩
abbrev main_v0_scs : Ref sig .scScalar := ⟨.hbm, 2, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 3 → Nat :=
  let c0_i32_16 : BitVec 32 := 0#32
  let c1_i32 : BitVec 32 := 1#32
  let v2 : BitVec 32 := Scalar.subi v1 c1_i32
  let c0_i32_19 : BitVec 32 := 0#32
  ![0, v2.toNat, 0]

def k0_off2 (v4 : BitVec 32) : Fin 3 → Nat :=
  let c1_i32_20 : BitVec 32 := 1#32
  let c1_i32_1 : BitVec 32 := 1#32
  let v5 : BitVec 32 := Scalar.subi v4 c1_i32_1
  let c0_i32_23 : BitVec 32 := 0#32
  ![1, v5.toNat, 0]

def k0_off3 (v7 : BitVec 32) : Fin 3 → Nat :=
  let c2_i32_24 : BitVec 32 := 2#32
  let c1_i32_2 : BitVec 32 := 1#32
  let v8 : BitVec 32 := Scalar.subi v7 c1_i32_2
  let c0_i32_27 : BitVec 32 := 0#32
  ![2, v8.toNat, 0]

def k0_off4 (v10 : BitVec 32) : Fin 3 → Nat :=
  let c3_i32_28 : BitVec 32 := 3#32
  let c1_i32_3 : BitVec 32 := 1#32
  let v11 : BitVec 32 := Scalar.subi v10 c1_i32_3
  let c0_i32_31 : BitVec 32 := 0#32
  ![3, v11.toNat, 0]

def k0_off5 (v13 : BitVec 32) : Fin 3 → Nat :=
  let c4_i32_32 : BitVec 32 := 4#32
  let c1_i32_4 : BitVec 32 := 1#32
  let v14 : BitVec 32 := Scalar.subi v13 c1_i32_4
  let c0_i32_35 : BitVec 32 := 0#32
  ![4, v14.toNat, 0]

def k0_off6 (v16 : BitVec 32) : Fin 3 → Nat :=
  let c5_i32_36 : BitVec 32 := 5#32
  let c1_i32_5 : BitVec 32 := 1#32
  let v17 : BitVec 32 := Scalar.subi v16 c1_i32_5
  let c0_i32_39 : BitVec 32 := 0#32
  ![5, v17.toNat, 0]

def k0_off7 (v19 : BitVec 32) : Fin 3 → Nat :=
  let c6_i32_40 : BitVec 32 := 6#32
  let c1_i32_6 : BitVec 32 := 1#32
  let v20 : BitVec 32 := Scalar.subi v19 c1_i32_6
  let c0_i32_43 : BitVec 32 := 0#32
  ![6, v20.toNat, 0]

def k0_off8 (v22 : BitVec 32) : Fin 3 → Nat :=
  let c7_i32_44 : BitVec 32 := 7#32
  let c1_i32_7 : BitVec 32 := 1#32
  let v23 : BitVec 32 := Scalar.subi v22 c1_i32_7
  let c0_i32_47 : BitVec 32 := 0#32
  ![7, v23.toNat, 0]

def k0_off9 (v25 : BitVec 32) : Fin 3 → Nat :=
  let c8_i32_48 : BitVec 32 := 8#32
  let c1_i32_8 : BitVec 32 := 1#32
  let v26 : BitVec 32 := Scalar.subi v25 c1_i32_8
  let c0_i32_51 : BitVec 32 := 0#32
  ![8, v26.toNat, 0]

def k0_off10 (v28 : BitVec 32) : Fin 3 → Nat :=
  let c9_i32_52 : BitVec 32 := 9#32
  let c1_i32_9 : BitVec 32 := 1#32
  let v29 : BitVec 32 := Scalar.subi v28 c1_i32_9
  let c0_i32_55 : BitVec 32 := 0#32
  ![9, v29.toNat, 0]

def k0_off11 (v31 : BitVec 32) : Fin 3 → Nat :=
  let c10_i32_56 : BitVec 32 := 10#32
  let c1_i32_10 : BitVec 32 := 1#32
  let v32 : BitVec 32 := Scalar.subi v31 c1_i32_10
  let c0_i32_59 : BitVec 32 := 0#32
  ![10, v32.toNat, 0]

def k0_off12 (v34 : BitVec 32) : Fin 3 → Nat :=
  let c11_i32_60 : BitVec 32 := 11#32
  let c1_i32_11 : BitVec 32 := 1#32
  let v35 : BitVec 32 := Scalar.subi v34 c1_i32_11
  let c0_i32_63 : BitVec 32 := 0#32
  ![11, v35.toNat, 0]

def k0_off13 (v37 : BitVec 32) : Fin 3 → Nat :=
  let c12_i32_64 : BitVec 32 := 12#32
  let c1_i32_12 : BitVec 32 := 1#32
  let v38 : BitVec 32 := Scalar.subi v37 c1_i32_12
  let c0_i32_67 : BitVec 32 := 0#32
  ![12, v38.toNat, 0]

def k0_off14 (v40 : BitVec 32) : Fin 3 → Nat :=
  let c13_i32_68 : BitVec 32 := 13#32
  let c1_i32_13 : BitVec 32 := 1#32
  let v41 : BitVec 32 := Scalar.subi v40 c1_i32_13
  let c0_i32_71 : BitVec 32 := 0#32
  ![13, v41.toNat, 0]

def k0_off15 (v43 : BitVec 32) : Fin 3 → Nat :=
  let c14_i32_72 : BitVec 32 := 14#32
  let c1_i32_14 : BitVec 32 := 1#32
  let v44 : BitVec 32 := Scalar.subi v43 c1_i32_14
  let c0_i32_75 : BitVec 32 := 0#32
  ![14, v44.toNat, 0]

def k0_off16 (v46 : BitVec 32) : Fin 3 → Nat :=
  let c15_i32_76 : BitVec 32 := 15#32
  let c1_i32_15 : BitVec 32 := 1#32
  let v47 : BitVec 32 := Scalar.subi v46 c1_i32_15
  let c0_i32_79 : BitVec 32 := 0#32
  ![15, v47.toNat, 0]

def k0_chk16 (v46 : BitVec 32) : Prop :=
  (∀ a, (k0_off16 v46) a + S1x1x1024.size a ≤ S16x4096x1024.size a)
instance k0_chk16.dec : ∀ (v46 : BitVec 32), Decidable (k0_chk16 v46) := fun v46 => decidable_of_iff' _ (Iff.of_eq (k0_chk16.eq_1 v46))
theorem k0_off16_inb : ∀ (v46 : BitVec 32) (k0_hw16 : k0_chk16 v46), ∀ a, (k0_off16 v46) a + S1x1x1024.size a ≤ S16x4096x1024.size a := fun v46 k0_hw16 => k0_hw16

def k0_off17 (v1 : BitVec 32) : Fin 3 → Nat :=
  let c0_i32_80 : BitVec 32 := 0#32
  let c1_i32 : BitVec 32 := 1#32
  let v2 : BitVec 32 := Scalar.subi v1 c1_i32
  let c0_i32_83 : BitVec 32 := 0#32
  ![0, v2.toNat, 0]

def k0_chk1 (v1 : BitVec 32) : Prop :=
  (∀ a, (k0_off1 v1) a + S1x1x1024.size a ≤ S16x4096x1024.size a) ∧
  (∀ a, (k0_off17 v1) a + S1x1x1024.size a ≤ S16x4096x1024.size a)
instance k0_chk1.dec : ∀ (v1 : BitVec 32), Decidable (k0_chk1 v1) := fun v1 => decidable_of_iff' _ (Iff.of_eq (k0_chk1.eq_1 v1))
theorem k0_off1_inb : ∀ (v1 : BitVec 32) (k0_hw1 : k0_chk1 v1), ∀ a, (k0_off1 v1) a + S1x1x1024.size a ≤ S16x4096x1024.size a := fun v1 k0_hw1 => k0_hw1.1
theorem k0_off17_inb : ∀ (v1 : BitVec 32) (k0_hw1 : k0_chk1 v1), ∀ a, (k0_off17 v1) a + S1x1x1024.size a ≤ S16x4096x1024.size a := fun v1 k0_hw1 => k0_hw1.2

def k0_off18 (v4 : BitVec 32) : Fin 3 → Nat :=
  let c1_i32_84 : BitVec 32 := 1#32
  let c1_i32_1 : BitVec 32 := 1#32
  let v5 : BitVec 32 := Scalar.subi v4 c1_i32_1
  let c0_i32_87 : BitVec 32 := 0#32
  ![1, v5.toNat, 0]

def k0_chk2 (v4 : BitVec 32) : Prop :=
  (∀ a, (k0_off2 v4) a + S1x1x1024.size a ≤ S16x4096x1024.size a) ∧
  (∀ a, (k0_off18 v4) a + S1x1x1024.size a ≤ S16x4096x1024.size a)
instance k0_chk2.dec : ∀ (v4 : BitVec 32), Decidable (k0_chk2 v4) := fun v4 => decidable_of_iff' _ (Iff.of_eq (k0_chk2.eq_1 v4))
theorem k0_off2_inb : ∀ (v4 : BitVec 32) (k0_hw2 : k0_chk2 v4), ∀ a, (k0_off2 v4) a + S1x1x1024.size a ≤ S16x4096x1024.size a := fun v4 k0_hw2 => k0_hw2.1
theorem k0_off18_inb : ∀ (v4 : BitVec 32) (k0_hw2 : k0_chk2 v4), ∀ a, (k0_off18 v4) a + S1x1x1024.size a ≤ S16x4096x1024.size a := fun v4 k0_hw2 => k0_hw2.2

def k0_off19 (v7 : BitVec 32) : Fin 3 → Nat :=
  let c2_i32_88 : BitVec 32 := 2#32
  let c1_i32_2 : BitVec 32 := 1#32
  let v8 : BitVec 32 := Scalar.subi v7 c1_i32_2
  let c0_i32_91 : BitVec 32 := 0#32
  ![2, v8.toNat, 0]

def k0_chk3 (v7 : BitVec 32) : Prop :=
  (∀ a, (k0_off3 v7) a + S1x1x1024.size a ≤ S16x4096x1024.size a) ∧
  (∀ a, (k0_off19 v7) a + S1x1x1024.size a ≤ S16x4096x1024.size a)
instance k0_chk3.dec : ∀ (v7 : BitVec 32), Decidable (k0_chk3 v7) := fun v7 => decidable_of_iff' _ (Iff.of_eq (k0_chk3.eq_1 v7))
theorem k0_off3_inb : ∀ (v7 : BitVec 32) (k0_hw3 : k0_chk3 v7), ∀ a, (k0_off3 v7) a + S1x1x1024.size a ≤ S16x4096x1024.size a := fun v7 k0_hw3 => k0_hw3.1
theorem k0_off19_inb : ∀ (v7 : BitVec 32) (k0_hw3 : k0_chk3 v7), ∀ a, (k0_off19 v7) a + S1x1x1024.size a ≤ S16x4096x1024.size a := fun v7 k0_hw3 => k0_hw3.2

def k0_off20 (v10 : BitVec 32) : Fin 3 → Nat :=
  let c3_i32_92 : BitVec 32 := 3#32
  let c1_i32_3 : BitVec 32 := 1#32
  let v11 : BitVec 32 := Scalar.subi v10 c1_i32_3
  let c0_i32_95 : BitVec 32 := 0#32
  ![3, v11.toNat, 0]

def k0_chk4 (v10 : BitVec 32) : Prop :=
  (∀ a, (k0_off4 v10) a + S1x1x1024.size a ≤ S16x4096x1024.size a) ∧
  (∀ a, (k0_off20 v10) a + S1x1x1024.size a ≤ S16x4096x1024.size a)
instance k0_chk4.dec : ∀ (v10 : BitVec 32), Decidable (k0_chk4 v10) := fun v10 => decidable_of_iff' _ (Iff.of_eq (k0_chk4.eq_1 v10))
theorem k0_off4_inb : ∀ (v10 : BitVec 32) (k0_hw4 : k0_chk4 v10), ∀ a, (k0_off4 v10) a + S1x1x1024.size a ≤ S16x4096x1024.size a := fun v10 k0_hw4 => k0_hw4.1
theorem k0_off20_inb : ∀ (v10 : BitVec 32) (k0_hw4 : k0_chk4 v10), ∀ a, (k0_off20 v10) a + S1x1x1024.size a ≤ S16x4096x1024.size a := fun v10 k0_hw4 => k0_hw4.2

def k0_off21 (v13 : BitVec 32) : Fin 3 → Nat :=
  let c4_i32_96 : BitVec 32 := 4#32
  let c1_i32_4 : BitVec 32 := 1#32
  let v14 : BitVec 32 := Scalar.subi v13 c1_i32_4
  let c0_i32_99 : BitVec 32 := 0#32
  ![4, v14.toNat, 0]

def k0_chk5 (v13 : BitVec 32) : Prop :=
  (∀ a, (k0_off5 v13) a + S1x1x1024.size a ≤ S16x4096x1024.size a) ∧
  (∀ a, (k0_off21 v13) a + S1x1x1024.size a ≤ S16x4096x1024.size a)
instance k0_chk5.dec : ∀ (v13 : BitVec 32), Decidable (k0_chk5 v13) := fun v13 => decidable_of_iff' _ (Iff.of_eq (k0_chk5.eq_1 v13))
theorem k0_off5_inb : ∀ (v13 : BitVec 32) (k0_hw5 : k0_chk5 v13), ∀ a, (k0_off5 v13) a + S1x1x1024.size a ≤ S16x4096x1024.size a := fun v13 k0_hw5 => k0_hw5.1
theorem k0_off21_inb : ∀ (v13 : BitVec 32) (k0_hw5 : k0_chk5 v13), ∀ a, (k0_off21 v13) a + S1x1x1024.size a ≤ S16x4096x1024.size a := fun v13 k0_hw5 => k0_hw5.2

def k0_off22 (v16 : BitVec 32) : Fin 3 → Nat :=
  let c5_i32_100 : BitVec 32 := 5#32
  let c1_i32_5 : BitVec 32 := 1#32
  let v17 : BitVec 32 := Scalar.subi v16 c1_i32_5
  let c0_i32_103 : BitVec 32 := 0#32
  ![5, v17.toNat, 0]

def k0_chk6 (v16 : BitVec 32) : Prop :=
  (∀ a, (k0_off6 v16) a + S1x1x1024.size a ≤ S16x4096x1024.size a) ∧
  (∀ a, (k0_off22 v16) a + S1x1x1024.size a ≤ S16x4096x1024.size a)
instance k0_chk6.dec : ∀ (v16 : BitVec 32), Decidable (k0_chk6 v16) := fun v16 => decidable_of_iff' _ (Iff.of_eq (k0_chk6.eq_1 v16))
theorem k0_off6_inb : ∀ (v16 : BitVec 32) (k0_hw6 : k0_chk6 v16), ∀ a, (k0_off6 v16) a + S1x1x1024.size a ≤ S16x4096x1024.size a := fun v16 k0_hw6 => k0_hw6.1
theorem k0_off22_inb : ∀ (v16 : BitVec 32) (k0_hw6 : k0_chk6 v16), ∀ a, (k0_off22 v16) a + S1x1x1024.size a ≤ S16x4096x1024.size a := fun v16 k0_hw6 => k0_hw6.2

def k0_off23 (v19 : BitVec 32) : Fin 3 → Nat :=
  let c6_i32_104 : BitVec 32 := 6#32
  let c1_i32_6 : BitVec 32 := 1#32
  let v20 : BitVec 32 := Scalar.subi v19 c1_i32_6
  let c0_i32_107 : BitVec 32 := 0#32
  ![6, v20.toNat, 0]

def k0_chk7 (v19 : BitVec 32) : Prop :=
  (∀ a, (k0_off7 v19) a + S1x1x1024.size a ≤ S16x4096x1024.size a) ∧
  (∀ a, (k0_off23 v19) a + S1x1x1024.size a ≤ S16x4096x1024.size a)
instance k0_chk7.dec : ∀ (v19 : BitVec 32), Decidable (k0_chk7 v19) := fun v19 => decidable_of_iff' _ (Iff.of_eq (k0_chk7.eq_1 v19))
theorem k0_off7_inb : ∀ (v19 : BitVec 32) (k0_hw7 : k0_chk7 v19), ∀ a, (k0_off7 v19) a + S1x1x1024.size a ≤ S16x4096x1024.size a := fun v19 k0_hw7 => k0_hw7.1
theorem k0_off23_inb : ∀ (v19 : BitVec 32) (k0_hw7 : k0_chk7 v19), ∀ a, (k0_off23 v19) a + S1x1x1024.size a ≤ S16x4096x1024.size a := fun v19 k0_hw7 => k0_hw7.2

def k0_off24 (v22 : BitVec 32) : Fin 3 → Nat :=
  let c7_i32_108 : BitVec 32 := 7#32
  let c1_i32_7 : BitVec 32 := 1#32
  let v23 : BitVec 32 := Scalar.subi v22 c1_i32_7
  let c0_i32_111 : BitVec 32 := 0#32
  ![7, v23.toNat, 0]

def k0_chk8 (v22 : BitVec 32) : Prop :=
  (∀ a, (k0_off8 v22) a + S1x1x1024.size a ≤ S16x4096x1024.size a) ∧
  (∀ a, (k0_off24 v22) a + S1x1x1024.size a ≤ S16x4096x1024.size a)
instance k0_chk8.dec : ∀ (v22 : BitVec 32), Decidable (k0_chk8 v22) := fun v22 => decidable_of_iff' _ (Iff.of_eq (k0_chk8.eq_1 v22))
theorem k0_off8_inb : ∀ (v22 : BitVec 32) (k0_hw8 : k0_chk8 v22), ∀ a, (k0_off8 v22) a + S1x1x1024.size a ≤ S16x4096x1024.size a := fun v22 k0_hw8 => k0_hw8.1
theorem k0_off24_inb : ∀ (v22 : BitVec 32) (k0_hw8 : k0_chk8 v22), ∀ a, (k0_off24 v22) a + S1x1x1024.size a ≤ S16x4096x1024.size a := fun v22 k0_hw8 => k0_hw8.2

def k0_off25 (v25 : BitVec 32) : Fin 3 → Nat :=
  let c8_i32_112 : BitVec 32 := 8#32
  let c1_i32_8 : BitVec 32 := 1#32
  let v26 : BitVec 32 := Scalar.subi v25 c1_i32_8
  let c0_i32_115 : BitVec 32 := 0#32
  ![8, v26.toNat, 0]

def k0_chk9 (v25 : BitVec 32) : Prop :=
  (∀ a, (k0_off9 v25) a + S1x1x1024.size a ≤ S16x4096x1024.size a) ∧
  (∀ a, (k0_off25 v25) a + S1x1x1024.size a ≤ S16x4096x1024.size a)
instance k0_chk9.dec : ∀ (v25 : BitVec 32), Decidable (k0_chk9 v25) := fun v25 => decidable_of_iff' _ (Iff.of_eq (k0_chk9.eq_1 v25))
theorem k0_off9_inb : ∀ (v25 : BitVec 32) (k0_hw9 : k0_chk9 v25), ∀ a, (k0_off9 v25) a + S1x1x1024.size a ≤ S16x4096x1024.size a := fun v25 k0_hw9 => k0_hw9.1
theorem k0_off25_inb : ∀ (v25 : BitVec 32) (k0_hw9 : k0_chk9 v25), ∀ a, (k0_off25 v25) a + S1x1x1024.size a ≤ S16x4096x1024.size a := fun v25 k0_hw9 => k0_hw9.2

def k0_off26 (v28 : BitVec 32) : Fin 3 → Nat :=
  let c9_i32_116 : BitVec 32 := 9#32
  let c1_i32_9 : BitVec 32 := 1#32
  let v29 : BitVec 32 := Scalar.subi v28 c1_i32_9
  let c0_i32_119 : BitVec 32 := 0#32
  ![9, v29.toNat, 0]

def k0_chk10 (v28 : BitVec 32) : Prop :=
  (∀ a, (k0_off10 v28) a + S1x1x1024.size a ≤ S16x4096x1024.size a) ∧
  (∀ a, (k0_off26 v28) a + S1x1x1024.size a ≤ S16x4096x1024.size a)
instance k0_chk10.dec : ∀ (v28 : BitVec 32), Decidable (k0_chk10 v28) := fun v28 => decidable_of_iff' _ (Iff.of_eq (k0_chk10.eq_1 v28))
theorem k0_off10_inb : ∀ (v28 : BitVec 32) (k0_hw10 : k0_chk10 v28), ∀ a, (k0_off10 v28) a + S1x1x1024.size a ≤ S16x4096x1024.size a := fun v28 k0_hw10 => k0_hw10.1
theorem k0_off26_inb : ∀ (v28 : BitVec 32) (k0_hw10 : k0_chk10 v28), ∀ a, (k0_off26 v28) a + S1x1x1024.size a ≤ S16x4096x1024.size a := fun v28 k0_hw10 => k0_hw10.2

def k0_off27 (v31 : BitVec 32) : Fin 3 → Nat :=
  let c10_i32_120 : BitVec 32 := 10#32
  let c1_i32_10 : BitVec 32 := 1#32
  let v32 : BitVec 32 := Scalar.subi v31 c1_i32_10
  let c0_i32_123 : BitVec 32 := 0#32
  ![10, v32.toNat, 0]

def k0_chk11 (v31 : BitVec 32) : Prop :=
  (∀ a, (k0_off11 v31) a + S1x1x1024.size a ≤ S16x4096x1024.size a) ∧
  (∀ a, (k0_off27 v31) a + S1x1x1024.size a ≤ S16x4096x1024.size a)
instance k0_chk11.dec : ∀ (v31 : BitVec 32), Decidable (k0_chk11 v31) := fun v31 => decidable_of_iff' _ (Iff.of_eq (k0_chk11.eq_1 v31))
theorem k0_off11_inb : ∀ (v31 : BitVec 32) (k0_hw11 : k0_chk11 v31), ∀ a, (k0_off11 v31) a + S1x1x1024.size a ≤ S16x4096x1024.size a := fun v31 k0_hw11 => k0_hw11.1
theorem k0_off27_inb : ∀ (v31 : BitVec 32) (k0_hw11 : k0_chk11 v31), ∀ a, (k0_off27 v31) a + S1x1x1024.size a ≤ S16x4096x1024.size a := fun v31 k0_hw11 => k0_hw11.2

def k0_off28 (v34 : BitVec 32) : Fin 3 → Nat :=
  let c11_i32_124 : BitVec 32 := 11#32
  let c1_i32_11 : BitVec 32 := 1#32
  let v35 : BitVec 32 := Scalar.subi v34 c1_i32_11
  let c0_i32_127 : BitVec 32 := 0#32
  ![11, v35.toNat, 0]

def k0_chk12 (v34 : BitVec 32) : Prop :=
  (∀ a, (k0_off12 v34) a + S1x1x1024.size a ≤ S16x4096x1024.size a) ∧
  (∀ a, (k0_off28 v34) a + S1x1x1024.size a ≤ S16x4096x1024.size a)
instance k0_chk12.dec : ∀ (v34 : BitVec 32), Decidable (k0_chk12 v34) := fun v34 => decidable_of_iff' _ (Iff.of_eq (k0_chk12.eq_1 v34))
theorem k0_off12_inb : ∀ (v34 : BitVec 32) (k0_hw12 : k0_chk12 v34), ∀ a, (k0_off12 v34) a + S1x1x1024.size a ≤ S16x4096x1024.size a := fun v34 k0_hw12 => k0_hw12.1
theorem k0_off28_inb : ∀ (v34 : BitVec 32) (k0_hw12 : k0_chk12 v34), ∀ a, (k0_off28 v34) a + S1x1x1024.size a ≤ S16x4096x1024.size a := fun v34 k0_hw12 => k0_hw12.2

def k0_off29 (v37 : BitVec 32) : Fin 3 → Nat :=
  let c12_i32_128 : BitVec 32 := 12#32
  let c1_i32_12 : BitVec 32 := 1#32
  let v38 : BitVec 32 := Scalar.subi v37 c1_i32_12
  let c0_i32_131 : BitVec 32 := 0#32
  ![12, v38.toNat, 0]

def k0_chk13 (v37 : BitVec 32) : Prop :=
  (∀ a, (k0_off13 v37) a + S1x1x1024.size a ≤ S16x4096x1024.size a) ∧
  (∀ a, (k0_off29 v37) a + S1x1x1024.size a ≤ S16x4096x1024.size a)
instance k0_chk13.dec : ∀ (v37 : BitVec 32), Decidable (k0_chk13 v37) := fun v37 => decidable_of_iff' _ (Iff.of_eq (k0_chk13.eq_1 v37))
theorem k0_off13_inb : ∀ (v37 : BitVec 32) (k0_hw13 : k0_chk13 v37), ∀ a, (k0_off13 v37) a + S1x1x1024.size a ≤ S16x4096x1024.size a := fun v37 k0_hw13 => k0_hw13.1
theorem k0_off29_inb : ∀ (v37 : BitVec 32) (k0_hw13 : k0_chk13 v37), ∀ a, (k0_off29 v37) a + S1x1x1024.size a ≤ S16x4096x1024.size a := fun v37 k0_hw13 => k0_hw13.2

def k0_off30 (v40 : BitVec 32) : Fin 3 → Nat :=
  let c13_i32_132 : BitVec 32 := 13#32
  let c1_i32_13 : BitVec 32 := 1#32
  let v41 : BitVec 32 := Scalar.subi v40 c1_i32_13
  let c0_i32_135 : BitVec 32 := 0#32
  ![13, v41.toNat, 0]

def k0_chk14 (v40 : BitVec 32) : Prop :=
  (∀ a, (k0_off14 v40) a + S1x1x1024.size a ≤ S16x4096x1024.size a) ∧
  (∀ a, (k0_off30 v40) a + S1x1x1024.size a ≤ S16x4096x1024.size a)
instance k0_chk14.dec : ∀ (v40 : BitVec 32), Decidable (k0_chk14 v40) := fun v40 => decidable_of_iff' _ (Iff.of_eq (k0_chk14.eq_1 v40))
theorem k0_off14_inb : ∀ (v40 : BitVec 32) (k0_hw14 : k0_chk14 v40), ∀ a, (k0_off14 v40) a + S1x1x1024.size a ≤ S16x4096x1024.size a := fun v40 k0_hw14 => k0_hw14.1
theorem k0_off30_inb : ∀ (v40 : BitVec 32) (k0_hw14 : k0_chk14 v40), ∀ a, (k0_off30 v40) a + S1x1x1024.size a ≤ S16x4096x1024.size a := fun v40 k0_hw14 => k0_hw14.2

def k0_off31 (v43 : BitVec 32) : Fin 3 → Nat :=
  let c14_i32_136 : BitVec 32 := 14#32
  let c1_i32_14 : BitVec 32 := 1#32
  let v44 : BitVec 32 := Scalar.subi v43 c1_i32_14
  let c0_i32_139 : BitVec 32 := 0#32
  ![14, v44.toNat, 0]

def k0_chk15 (v43 : BitVec 32) : Prop :=
  (∀ a, (k0_off15 v43) a + S1x1x1024.size a ≤ S16x4096x1024.size a) ∧
  (∀ a, (k0_off31 v43) a + S1x1x1024.size a ≤ S16x4096x1024.size a)
instance k0_chk15.dec : ∀ (v43 : BitVec 32), Decidable (k0_chk15 v43) := fun v43 => decidable_of_iff' _ (Iff.of_eq (k0_chk15.eq_1 v43))
theorem k0_off15_inb : ∀ (v43 : BitVec 32) (k0_hw15 : k0_chk15 v43), ∀ a, (k0_off15 v43) a + S1x1x1024.size a ≤ S16x4096x1024.size a := fun v43 k0_hw15 => k0_hw15.1
theorem k0_off31_inb : ∀ (v43 : BitVec 32) (k0_hw15 : k0_chk15 v43), ∀ a, (k0_off31 v43) a + S1x1x1024.size a ≤ S16x4096x1024.size a := fun v43 k0_hw15 => k0_hw15.2

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))

class Facts₀ : Prop where
  inb_S16_S1_0 : ∀ a, (![0] : Fin 1 → Nat) a + S1.size a ≤ S16.size a
  numel1_S1 : S1.numel = 1
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  inb_S16x1024_S1x1024_0_0 : ∀ a, (![0, 0] : Fin 2 → Nat) a + S1x1024.size a ≤ S16x1024.size a
  squeezes_S1x1x1024_S1x1024 : S1x1x1024.Squeezes S1x1024
  inb_S16x1024_S1x1024_1_0 : ∀ a, (![1, 0] : Fin 2 → Nat) a + S1x1024.size a ≤ S16x1024.size a
  inb_S16x1024_S1x1024_2_0 : ∀ a, (![2, 0] : Fin 2 → Nat) a + S1x1024.size a ≤ S16x1024.size a
  inb_S16x1024_S1x1024_3_0 : ∀ a, (![3, 0] : Fin 2 → Nat) a + S1x1024.size a ≤ S16x1024.size a
  inb_S16x1024_S1x1024_4_0 : ∀ a, (![4, 0] : Fin 2 → Nat) a + S1x1024.size a ≤ S16x1024.size a
  inb_S16x1024_S1x1024_5_0 : ∀ a, (![5, 0] : Fin 2 → Nat) a + S1x1024.size a ≤ S16x1024.size a
  inb_S16x1024_S1x1024_6_0 : ∀ a, (![6, 0] : Fin 2 → Nat) a + S1x1024.size a ≤ S16x1024.size a
  inb_S16x1024_S1x1024_7_0 : ∀ a, (![7, 0] : Fin 2 → Nat) a + S1x1024.size a ≤ S16x1024.size a
  inb_S16x1024_S1x1024_8_0 : ∀ a, (![8, 0] : Fin 2 → Nat) a + S1x1024.size a ≤ S16x1024.size a
  inb_S16x1024_S1x1024_9_0 : ∀ a, (![9, 0] : Fin 2 → Nat) a + S1x1024.size a ≤ S16x1024.size a
  inb_S16x1024_S1x1024_10_0 : ∀ a, (![10, 0] : Fin 2 → Nat) a + S1x1024.size a ≤ S16x1024.size a
  inb_S16x1024_S1x1024_11_0 : ∀ a, (![11, 0] : Fin 2 → Nat) a + S1x1024.size a ≤ S16x1024.size a
  inb_S16x1024_S1x1024_12_0 : ∀ a, (![12, 0] : Fin 2 → Nat) a + S1x1024.size a ≤ S16x1024.size a
  inb_S16x1024_S1x1024_13_0 : ∀ a, (![13, 0] : Fin 2 → Nat) a + S1x1024.size a ≤ S16x1024.size a
  inb_S16x1024_S1x1024_14_0 : ∀ a, (![14, 0] : Fin 2 → Nat) a + S1x1024.size a ≤ S16x1024.size a
  inb_S16x1024_S1x1024_15_0 : ∀ a, (![15, 0] : Fin 2 → Nat) a + S1x1024.size a ≤ S16x1024.size a
  hcc0_scratch1 : 0 + S_.numel ≤ 2
  hcc0_scoped0 : 1 + S_.numel ≤ 2
  hscKind : ∀ q, scKind q ≠ .tc
  hscCore : ∀ q, scNCore q ≤ τ.nSC
  hscSub : ∀ q, scNSub q ≤ τ.nSub
  hcore0 : grid0.bound 0 ≤ τ.nSC

variable [Facts₀]

abbrev cc0_scratch1 : DmaSems sig S_ := SemArray.consecutive 0 S_ hcc0_scratch1
abbrev cc0_scoped0 : DmaSems sig S_ := SemArray.consecutive 1 S_ hcc0_scoped0

class Facts : Prop extends Facts₀ where

variable [Facts]
-- ==== ReferenceIdeal.lean ====
abbrev S16x4096x1024 : Shape := ⟨3, ![16, 4096, 1024]⟩
abbrev S16 : Shape := ⟨1, ![16]⟩
abbrev S_ : Shape := ⟨0, ![]⟩
abbrev S16x1x1 : Shape := ⟨3, ![16, 1, 1]⟩
abbrev S1 : Shape := ⟨1, ![1]⟩
abbrev S1x1x1 : Shape := ⟨3, ![1, 1, 1]⟩
abbrev S16x1 : Shape := ⟨2, ![16, 1]⟩
abbrev S16x1x1024 : Shape := ⟨3, ![16, 1, 1024]⟩
abbrev S16x1024 : Shape := ⟨2, ![16, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16, .i32⟩
  | .hbm, ⟨2, _⟩ => ⟨S_, .i32⟩
  | .hbm, ⟨3, _⟩ => ⟨S16, .i32⟩
  | .hbm, ⟨4, _⟩ => ⟨S16, .i32⟩
  | .hbm, ⟨5, _⟩ => ⟨S16x1x1, .i32⟩
  | .hbm, ⟨6, _⟩ => ⟨S_, .i32⟩
  | .hbm, ⟨7, _⟩ => ⟨S16x1x1, .i32⟩
  | .hbm, ⟨8, _⟩ => ⟨S16x1x1, .i1⟩
  | .hbm, ⟨9, _⟩ => ⟨S_, .i32⟩
  | .hbm, ⟨10, _⟩ => ⟨S16x1x1, .i32⟩
  | .hbm, ⟨11, _⟩ => ⟨S16x1x1, .i32⟩
  | .hbm, ⟨12, _⟩ => ⟨S16x1x1, .i32⟩
  | .hbm, ⟨13, _⟩ => ⟨S1, .i32⟩
  | .hbm, ⟨14, _⟩ => ⟨S_, .i32⟩
  | .hbm, ⟨15, _⟩ => ⟨S16x1x1, .i32⟩
  | .hbm, ⟨16, _⟩ => ⟨S16x1x1, .i1⟩
  | .hbm, ⟨17, _⟩ => ⟨S1x1x1, .i32⟩
  | .hbm, ⟨18, _⟩ => ⟨S16x1x1, .i32⟩
  | .hbm, ⟨19, _⟩ => ⟨S16x1x1, .i1⟩
  | .hbm, ⟨20, _⟩ => ⟨S16x1x1, .i1⟩
  | .hbm, ⟨21, _⟩ => ⟨S_, .i1⟩
  | .hbm, ⟨22, _⟩ => ⟨S16x1, .i1⟩
  | .hbm, ⟨23, _⟩ => ⟨S16x1x1024, .f32⟩
  | .hbm, ⟨24, _⟩ => ⟨S16x1x1024, .i1⟩
  | .hbm, ⟨25, _⟩ => ⟨S_, .f32⟩
  | .hbm, ⟨26, _⟩ => ⟨S16x1x1024, .f32⟩
  | .hbm, ⟨27, _⟩ => ⟨S16x1x1024, .f32⟩
  | .hbm, ⟨28, _⟩ => ⟨S16x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S_S16 : S_.BroadcastsInDim S16 (![] : Fin 0 → Fin S16.rank)
  shapeCasts_S16_S16x1x1 : S16.ShapeCasts S16x1x1
  bcast_S_S16x1x1 : S_.BroadcastsInDim S16x1x1 (![] : Fin 0 → Fin S16x1x1.rank)
  bcast_S1_S1x1x1_2 : S1.BroadcastsInDim S1x1x1 (![2] : Fin 1 → Fin S1x1x1.rank)
  bcast_S1x1x1_S16x1x1_0_1_2 : S1x1x1.BroadcastsInDim S16x1x1 (![0, 1, 2] : Fin 3 → Fin S16x1x1.rank)
  reducesTo_S16x1x1_S16x1_d2 : S16x1x1.ReducesTo [2] S16x1
  h_S_ : 0 < S_.numel
  bcast_S16x1_S16x1x1024_0_1 : S16x1.BroadcastsInDim S16x1x1024 (![0, 1] : Fin 2 → Fin S16x1x1024.rank)
  bcast_S_S16x1x1024 : S_.BroadcastsInDim S16x1x1024 (![] : Fin 0 → Fin S16x1x1024.rank)
  shapeCasts_S16x1x1024_S16x1024 : S16x1x1024.ShapeCasts S16x1024
  gather_S16x4096x1024_S16x1x1_S16x1x1024_2_1_0_0_1_2_111024_wf : GatherDims.WF S16x4096x1024 S16x1x1 S16x1x1024 [2] [1] [0] [1] [0] 2 ![1, 1, 1024]

variable [Facts₀]

def gather_S16x4096x1024_S16x1x1_S16x1x1024_2_1_0_0_1_2_111024 : GatherDims S16x4096x1024 S16x1x1 S16x1x1024 where
  offsetDims := [2]
  collapsedSliceDims := [1]
  operandBatchingDims := [0]
  startIndicesBatchingDims := [0]
  startIndexMap := [1]
  indexVectorDim := 2
  sliceSizes := ![1, 1, 1024]
  wf := gather_S16x4096x1024_S16x1x1_S16x1x1024_2_1_0_0_1_2_111024_wf

class Facts : Prop extends Facts₀ where

variable [Facts]
-- ==== Proof.Domain.lean ====
/-
  The precondition, read back: every length lies in 1 … 4096.

  The printed predicate is the conjunction of "every entry of the table is finite" and "every length `v` has `1 ≤ v` and
  `v ≤ 4096`", each an `and` over all entries; it holds when its one word is 1. Only the second conjunct is opened: its `and` over
  the sixteen lengths being 1 makes each comparison 1, and a signed word between 1 and 4096 is that number unsigned too.
  The float conjunct is never needed: the programs only move the table's entries.
-/
import proofs.«217033_g62302795596241_cont_9to1_m_195_7_alg».proof.Pre_input_domain
import proofs.«217033_g62302795596241_cont_9to1_m_195_7_alg».proof.Proof.Gen.Pre_input_domain
import Idealize.ShloMosaic.Lib.ReduceAll
import Idealize.ShloMosaic.Lib.ValueIdx

namespace Cert.Proof.Domain

open Idealize.ShloMosaic Cert.Pre_input_domain Cert.Pre_input_domain.Gen

/-- A word that is at least 1 and at most 4096 as a signed number is that number unsigned. -/
theorem toNat_range_of_toInt (v : BitVec 32) (h1 : (1#32 : BitVec 32).toInt ≤ v.toInt) (h2 : v.toInt ≤ (4096#32 : BitVec 32).toInt) :
    1 ≤ v.toNat ∧ v.toNat ≤ 4096 := by
  have e1 : (1#32 : BitVec 32).toInt = 1 := by decide
  have e2 : (4096#32 : BitVec 32).toInt = 4096 := by decide
  rw [e1] at h1; rw [e2] at h2
  have hv := v.isLt
  rw [BitVec.toInt_eq_toNat_cond] at h1 h2
  split at h1 <;> omega

/-- Where the precondition holds, every length lies in 1 … 4096. -/
theorem lens_range {F : FTy → Type} [FloatOps F] (X : FVec F S16x4096x1024 .f32) (l : IVec S16 32)
    (h : Cert.Pre_input_domain.fn (F := F) X l = fun _ => 1#1) (j : S16.Idx) :
    1 ≤ (l j).toNat ∧ (l j).toNat ≤ 4096 := by
  have h0 := congrFun h ValueIdx.ix0
  dsimp only [Cert.Pre_input_domain.fn] at h0
  have h1 := (IntOp.andi_eq_one.1 h0).2
  haveI : Subsingleton S_.Idx := ⟨fun a b => funext fun d => d.elim0⟩
  have h2 := Host.reduce_andi_all _ _ _ _ _ h1 j
  have h3 := IntOp.andi_eq_one.1 h2
  exact toNat_range_of_toInt (l j) (IntOp.cmpi_sge.1 h3.1) (IntOp.cmpi_sle.1 h3.2)

end Cert.Proof.Domain
-- ==== Proof.LastRow.lean ====
/-
  The function both programs compute. The table `x` holds, for each of 16 sequences, 4096 time steps of 1024 numbers;
  `l` gives each sequence's length. The result keeps, for sequence `b`, the 1024 numbers of its LAST valid time step,
  the step numbered `l b - 1`:

      lastRows x l (b, j) = x (b, l b - 1, j).

  A length is a 32-bit word. `step v` is the time step the word `v` selects, `v - 1` computed on words; so that the
  function is defined at every word the step is taken below 4096, which changes nothing when `1 ≤ v ≤ 4096`
  (`step_val`). Nothing here mentions a program: the two sides are each shown to be this function.
-/
import Idealize.ShloMosaic.PureOps
import Idealize.ShloMosaic.Lib.ValueIdx

namespace Cert.LastRow

open Idealize.ShloMosaic Idealize.ShloMosaic.ValueIdx

/-- The time step a length word selects: one less than the word, as a row number of the 4096. -/
def step (v : BitVec 32) : Fin 4096 := ⟨(v - 1#32).toNat % 4096, Nat.mod_lt _ (by decide)⟩

/-- For a length in `1 … 4096` the selected step is the length less one, with no wrap-around. -/
theorem sub_one_toNat (v : BitVec 32) (h1 : 1 ≤ v.toNat) : (v - 1#32).toNat = v.toNat - 1 := by
  have := v.isLt
  rw [BitVec.toNat_sub]; simp; omega

theorem step_val (v : BitVec 32) (h1 : 1 ≤ v.toNat) (h2 : v.toNat ≤ 4096) : (step v).val = (v - 1#32).toNat := by
  show (v - 1#32).toNat % 4096 = _
  rw [sub_one_toNat v h1]; exact Nat.mod_eq_of_lt (by omega)

/-- Each sequence's last valid time step, all 1024 columns of it. -/
def lastRows {α : Type} (x : (⟨3, ![16, 4096, 1024]⟩ : Shape).Idx → α) (l : (⟨1, ![16]⟩ : Shape).Idx → BitVec 32) :
    (⟨2, ![16, 1024]⟩ : Shape).Idx → α :=
  fun i => x (ix3 (i 0) (step (l (ix1 (i 0)))) (i 1))

theorem lastRows_apply {α : Type} (x : (⟨3, ![16, 4096, 1024]⟩ : Shape).Idx → α) (l : (⟨1, ![16]⟩ : Shape).Idx → BitVec 32)
    (b : Fin 16) (j : Fin 1024) : lastRows x l (ix2 b j) = x (ix3 b (step (l (ix1 b))) j) := rfl

end Cert.LastRow
-- ==== Proof.RefValue.lean ====
/-
  The reference is `lastRows`.

  The reference takes, along the time axis, the entry numbered `l b - 1` for every sequence `b` and column. As lowered it
  first brings a negative number back into range by adding 4096, then marks the numbers that lie in `0 … 4095`, gathers, and
  puts a not-a-number wherever the mark is off. Where every length lies in 1 … 4096 the number `l b - 1` already lies in
  `0 … 4095`: nothing is added (`index_word`), every mark is on (`mark_on`), the gather's clamp changes nothing and it reads
  the table at `(b, l b - 1, j)` (`gather_read`), so the result is `LastRow.lastRows` (`ref_is_lastRows`). The stages and their
  readings at an index are the generated ones; the gather and the one-entry `and` of the marks are read here.
-/
import proofs.«217033_g62302795596241_cont_9to1_m_195_7_alg».proof.Proof.Gen.ReferenceIdeal.Read
import proofs.«217033_g62302795596241_cont_9to1_m_195_7_alg».proof.Proof.LastRow
import Idealize.ShloMosaic.Lib.Pipeline.Value
import Idealize.ShloMosaic.Lib.ValueIdx
import Idealize.ShloMosaic.Lib.ReduceAll

noncomputable section

namespace Cert.ReferenceIdeal.RefValue

open Cert.ReferenceIdeal Cert.ReferenceIdeal.Gen Cert.ReferenceIdeal.Read
open Idealize.ShloMosaic Idealize.ShloMosaic.ValueIdx

variable {F : FTy → Type} [FloatOps F]

/-- A left fold by `and` from 1 over entries that are all 1 is 1. -/
theorem foldl_andi_ones {ι : Type} (f : ι → BitVec 1) :
    ∀ (L : List ι) (init : BitVec 1), init = 1#1 → (∀ n ∈ L, f n = 1#1) → L.foldl (fun r n => IntOp.andi r (f n)) init = 1#1
  | [], _, h, _ => h
  | a :: L, init, h, hf =>
    foldl_andi_ones f L _ (IntOp.andi_eq_one.2 ⟨h, hf a List.mem_cons_self⟩) (fun n hn => hf n (List.mem_cons_of_mem _ hn))

/-- For a length in 1 … 4096, one less is a word in `0 … 4095`, signed and unsigned alike. -/
theorem pred_word (v : BitVec 32) (h1 : 1 ≤ v.toNat) (h2 : v.toNat ≤ 4096) :
    (v - 1#32).toNat = v.toNat - 1 ∧ (v - 1#32).toInt = ((v.toNat - 1 : ℕ) : ℤ) := by
  have hs := LastRow.sub_one_toNat v h1
  refine ⟨hs, ?_⟩
  rw [BitVec.toInt_eq_toNat_cond, hs]
  split <;> omega

local notation "GD" => gather_S16x4096x1024_S16x1x1_S16x1x1024_2_1_0_0_1_2_111024

variable (l : (⟨S16, .i32⟩ : BufTy).Contents (Elt F)) (hl : ∀ j : S16.Idx, 1 ≤ (l j : BitVec 32).toNat ∧ (l j : BitVec 32).toNat ≤ 4096)

include hl in
/-- The number the reference gathers at, for sequence `i 0`: the length less one; nothing is added to it. -/
theorem index_word (i : S16x1x1.Idx) : (val_main_call0_v4 (F := F) l i : BitVec 32) = (l (ix1 (i 0)) : BitVec 32) - 1#32 := by
  have hi : idx_main_v2 i = ix1 (i 0) := by
    funext (a : Fin 1); obtain rfl : a = 0 := Subsingleton.elim _ _
    refine Fin.ext ?_
    have h1 : (i 1).val < 1 := (i 1).isLt
    have h2 : (i 2).val < 1 := (i 2).isLt
    show ((i 0).val * 1 + (i 1).val) * 1 + (i 2).val = (i 0).val; omega
  have hv2 : (val_main_v2 (F := F) l i : BitVec 32) = (l (ix1 (i 0)) : BitVec 32) - 1#32 := by
    rw [val_main_v2_apply, val_main_v1_apply, val_main_v0_apply, val_main_c_apply, hi]; rfl
  obtain ⟨_, ht⟩ := pred_word _ (hl (ix1 (i 0))).1 (hl (ix1 (i 0))).2
  rw [val_main_call0_v4_apply, val_main_call0_v1_apply]
  have hneg : ¬ IntOp.cmpi .slt (val_main_v2 (F := F) l i) (val_main_call0_v0 (F := F) i) = 1#1 := by
    rw [IntOp.cmpi_slt, hv2, ht, val_main_call0_v0_apply, val_main_call0_c_apply]
    have : (0#32 : BitVec 32).toInt = 0 := by decide
    rw [this]; omega
  have hneg' : ¬ IntOp.cmpi .slt (val_main_v2 (F := F) l i) (val_main_call0_v0 (F := F) i) = (1 : BitVec 1) := hneg
  show (if _ = (1 : BitVec 1) then _ else _) = _
  rw [if_neg hneg', hv2]

include hl in
/-- Every mark is on: the gathered number lies in `0 … 4095`. -/
theorem mark_on (j : S16x1.Idx) : val_main_call0_v11 (F := F) l j = 1#1 := by
  unfold val_main_call0_v11
  rw [Host.reduce_eq_foldl]
  refine foldl_andi_ones _ _ _ rfl (fun i _ => ?_)
  rw [val_main_call0_v10_apply, IntOp.andi_eq_one, val_main_call0_v6_apply, val_main_call0_v9_apply, IntOp.cmpi_sge, IntOp.cmpi_sle,
    index_word l hl i, val_main_call0_v5_apply, val_main_call0_c_2_apply, val_main_call0_v8_apply, val_main_call0_v7_apply, val_main_call0_c_1_apply]
  obtain ⟨_, ht⟩ := pred_word _ (hl (ix1 (i 0))).1 (hl (ix1 (i 0))).2
  have e0 : (0#32 : BitVec 32).toInt = 0 := by decide
  have e1 : (4095#32 : BitVec 32).toInt = 4095 := by decide
  rw [ht, e0, e1]
  have := (hl (ix1 (i 0))).2
  constructor <;> omega

include hl in
/-- The gather read at `(b, 0, j)`: the table at `(b, l b - 1, j)`. -/
theorem gather_read (X : (⟨S16x4096x1024, .f32⟩ : BufTy).Contents (Elt F)) (b : Fin 16) (j : Fin 1024) :
    val_main_call0_v12 (F := F) X l (ix3 b (0 : Fin 1) j) = X (ix3 b (LastRow.step (l (ix1 b))) j) := by
  unfold val_main_call0_v12 Host.gather
  refine congrArg X (funext fun a => Fin.ext ?_)
  obtain ⟨hn, ht⟩ := pred_word _ (hl (ix1 b)).1 (hl (ix1 b)).2
  have hstep := LastRow.step_val _ (hl (ix1 b)).1 (hl (ix1 b)).2
  match a with
  | ⟨0, _⟩ =>
    show GatherDims.start GD (ix3 b (0 : Fin 1) j) (val_main_call0_v4 (F := F) l) (0 : Fin 3) + GatherDims.batchCoord GD (ix3 b (0 : Fin 1) j) (0 : Fin 3)
      + GatherDims.offCoord GD (ix3 b (0 : Fin 1) j) (0 : Fin 3) = b.val
    rw [GatherDims.offCoord_eq_zero GD _ (0 : Fin 3) (by decide)]
    unfold GatherDims.start
    rw [dif_neg (show (0 : Fin 3) ∉ (GD).startIndexMap by decide)]
    show 0 + b.val + 0 = b.val
    omega
  | ⟨1, _⟩ =>
    show GatherDims.start GD (ix3 b (0 : Fin 1) j) (val_main_call0_v4 (F := F) l) (1 : Fin 3) + GatherDims.batchCoord GD (ix3 b (0 : Fin 1) j) (1 : Fin 3)
      + GatherDims.offCoord GD (ix3 b (0 : Fin 1) j) (1 : Fin 3) = (LastRow.step (l (ix1 b))).val
    rw [GatherDims.offCoord_eq_zero GD _ (1 : Fin 3) (by decide), GatherDims.batchCoord_eq_zero GD _ (1 : Fin 3) (by decide)]
    unfold GatherDims.start
    rw [dif_pos (show (1 : Fin 3) ∈ (GD).startIndexMap by decide)]
    have hsi : GatherDims.siIdx GD (ix3 b (0 : Fin 1) j)
        ⟨List.idxOf (1 : Fin 3) (GD).startIndexMap, List.idxOf_lt_length_iff.2 (show (1 : Fin 3) ∈ (GD).startIndexMap by decide)⟩
        = ix3 b (0 : Fin 1) (0 : Fin 1) := by
      funext c; refine Fin.ext ?_
      match c with
      | ⟨0, _⟩ => rfl
      | ⟨1, _⟩ => rfl
      | ⟨2, _⟩ => rfl
    rw [hsi, index_word l hl, hstep, ht]
    show min ((((l (ix1 b) : BitVec 32).toNat - 1 : ℕ) : ℤ)).toNat (4096 - 1) + 0 + 0 = _
    rw [hn]
    have := (hl (ix1 b)).2
    simp only [Int.toNat_natCast]
    omega
  | ⟨2, _⟩ =>
    show GatherDims.start GD (ix3 b (0 : Fin 1) j) (val_main_call0_v4 (F := F) l) (2 : Fin 3) + GatherDims.batchCoord GD (ix3 b (0 : Fin 1) j) (2 : Fin 3)
      + GatherDims.offCoord GD (ix3 b (0 : Fin 1) j) (2 : Fin 3) = j.val
    rw [GatherDims.batchCoord_eq_zero GD _ (2 : Fin 3) (by decide)]
    unfold GatherDims.start
    rw [dif_neg (show (2 : Fin 3) ∉ (GD).startIndexMap by decide)]
    show 0 + 0 + j.val = j.val
    omega

include hl in
/-- The reference's result, stage by stage, is each sequence's last valid step. -/
theorem ref_is_lastRows (X : (⟨S16x4096x1024, .f32⟩ : BufTy).Contents (Elt F)) :
    val_main_v4 (F := F) X l = LastRow.lastRows X l := by
  funext i
  obtain ⟨b, j, rfl⟩ : ∃ (b : Fin 16) (j : Fin 1024), i = ix2 b j := ⟨i 0, i 1, eq_ix2 i⟩
  have hi : idx_main_v4 (ix2 b j) = ix3 b (0 : Fin 1) j := by
    funext a; refine Fin.ext ?_
    have hb := b.isLt; have hj := j.isLt
    match a with
    | ⟨0, _⟩ => show (b.val * 1024 + j.val) / 1024 = b.val; omega
    | ⟨1, _⟩ => rfl
    | ⟨2, _⟩ => show (b.val * 1024 + j.val) % 1024 = j.val; omega
  rw [val_main_v4_apply, hi, val_main_v3_apply, val_main_call0_v13_apply, mark_on l hl, gather_read l hl X b j]
  show (if (1#1 : BitVec 1) = 1 then _ else _) = _
  rw [if_pos (show (1#1 : BitVec 1) = 1 from rfl)]; rfl

end Cert.ReferenceIdeal.RefValue

end
-- ==== Proof.IdealStage.lean ====
/-
  The idealized kernel before it is run: what one sequencer is handed, and the arithmetic of its sixteen copies.

  One sequencer of one SparseCore does all the work. It copies the 16 lengths `l` into its scalar memory, reads them back
  one word at a time, and for sequence `b` copies the table's time step `l b - 1` — a box of extent 1 × 1 × 1024 at
  `(b, l b - 1, 0)`, its two unit axes merged — into row `b` of the result. The sixteen copies are started one after the other
  on one semaphore and then waited for one after the other; nothing touches the table or the result in between.

  Here, for any reading of the floats: the threads and their tables as the launch theorem takes them; the three arrays and the
  scalar scratch as the sequencer addresses them; and the arithmetic.
    * Under `1 ≤ l b ≤ 4096` every source box lies inside the table (`off_fits`), so each of the sixteen range conditions
      the body meets holds of the word it has read (`chk1_ok` … `chk16_ok`).
    * The word read back at position `b` of the scratch is `l b`: the scratch holds the lengths written whole (`word_eq`).
    * The box for sequence `b`, read at column `j`, is `x (b, l b - 1, j)` (`row_read`, `carried_eq`).
    * Sixteen such rows, row `b` written at `(b, 0)`, tile the result and leave `LastRow.lastRows x l` whatever it held
      before (`rows_cover`, `rows_agree`, `rows_value`).
-/
import proofs.«217033_g62302795596241_cont_9to1_m_195_7_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«217033_g62302795596241_cont_9to1_m_195_7_alg».proof.Proof.Gen.KernelIdeal
import proofs.«217033_g62302795596241_cont_9to1_m_195_7_alg».proof.Proof.Gen.KernelIdeal.Skeleton
import proofs.«217033_g62302795596241_cont_9to1_m_195_7_alg».proof.Proof.LastRow
import Idealize.ShloMosaic.Lib.Pipeline.Value
import Idealize.ShloMosaic.Lib.ValueIdx
import Idealize.ShloMosaic.Lib.ValueLayout

noncomputable section

namespace Cert.Proof.IdealStage

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

local notation "xW" => (Memref.whole Cert.KernelIdeal.main_arg0_scs : Memref Cert.KernelIdeal.sig Kind.scScalar Space.hbm Cert.KernelIdeal.S16x4096x1024 EltTy.f32)
local notation "lW" => (Memref.whole Cert.KernelIdeal.main_arg1_scs : Memref Cert.KernelIdeal.sig Kind.scScalar Space.hbm Cert.KernelIdeal.S16 EltTy.i32)
local notation "oW" => (Memref.whole Cert.KernelIdeal.main_v0_scs : Memref Cert.KernelIdeal.sig Kind.scScalar Space.hbm Cert.KernelIdeal.S16x1024 EltTy.f32)
local notation "sW" => (Memref.whole Cert.KernelIdeal.cc0_scratch0 : Memref Cert.KernelIdeal.sig Kind.scScalar Space.smem Cert.KernelIdeal.S16 EltTy.i32)
abbrev xLoc (d : Dev nD) : Loc nD τ sig := (SparseCore.T d).loc main_arg0
abbrev lLoc (d : Dev nD) : Loc nD τ sig := (SparseCore.T d).loc main_arg1
abbrev oLoc (d : Dev nD) : Loc nD τ sig := (SparseCore.T d).loc main_v0

variable [FloatOps F]

abbrev xPts (d : Dev nD) : sProp 𝕄 := xLoc d ↦{fullShare} m (xLoc d)
abbrev lPts (d : Dev nD) : sProp 𝕄 := lLoc d ↦{fullShare} m (lLoc d)
abbrev oPts (d : Dev nD) (f : Buf (Elt F) (oLoc d)) : sProp 𝕄 := oLoc d ↦{fullShare} f

/-- What the call hands the one SparseCore: the table and the lengths at their launch contents, the result array at whatever it holds. -/
def given (d : Dev nD) : sProp 𝕄 := iprop(xPts m d ∗ lPts m d ∗ ∃ f, oPts d f)
/-- What it takes back: the table and the lengths unchanged, the result array at each sequence's last valid step. -/
def back (d : Dev nD) : sProp 𝕄 := iprop(xPts m d ∗ lPts m d ∗ oPts d (LastRow.lastRows (m (xLoc d)) (m (lLoc d))))

/-! ## The kernel's body on the sequencer -/

section Body

variable (d : Dev nD)

def coordsS (c : Fin (grid0.bound 0)) : grid0.Coords := fun | 0 => c | ⟨_ + 1, h⟩ => absurd h (Nat.not_lt.2 (Nat.le_add_left _ _))

abbrev Sq (c : Fin (grid0.bound 0)) : Thread nD τ := S d (c.castLE hcore0)

abbrev cellA (c : Fin τ.nSC) : GSem nD τ sig := (S d c, .dma cc0_scratch1.sem)
abbrev cellB (c : Fin τ.nSC) : GSem nD τ sig := (S d c, .dma cc0_scoped0.sem)

omit [FloatOps F] in
theorem ownSems0_S (c : Fin τ.nSC) :
    (ownSems0 (S d c) : sProp 𝕄) = iprop(semVal (cellA d c) 0 ∗ semVal (cellB d c) 0
      ∗ bigSep (((ownCells (S d c)).erase (cellA d c)).erase (cellB d c)) fun g => semVal g 0) := by
  unfold SparseCore.Cfg.ownSems0
  rw [SparseCore.bigSep_erase' ((mem_ownCells (g := cellA d c)).mpr ⟨rfl, by
      show (SemLoc.dma cc0_scratch1.sem : SemLoc sig).isScoped .scScalar = true; decide⟩),
    SparseCore.bigSep_erase' (Finset.mem_erase.mpr ⟨by simp [cellA, cellB]; decide, (mem_ownCells (g := cellB d c)).mpr ⟨rfl, by
      show (SemLoc.dma cc0_scoped0.sem : SemLoc sig).isScoped .scScalar = true; decide⟩⟩)]

omit [FloatOps F] in
theorem ownBufs_S (c : Fin τ.nSC) :
    (ownBufs (S d c) : sProp 𝕄)
      = iprop((∃ f, (S d c).loc cc0_scratch0 ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scScalar c) (b := (Proc.scScalar c).devRef cc0_scratch0) rfl)

omit [FloatOps F] in
theorem pts_x (c : Fin τ.nSC) (f : Buf (Elt F) (xLoc d)) :
    ((xW).view.loc (S d c) ↦{fullShare} f : sProp 𝕄) = xLoc d ↦{fullShare} f := by
  simp only [Memref.view_whole, View.set_whole]
omit [FloatOps F] in
theorem pts_l (c : Fin τ.nSC) (f : Buf (Elt F) (lLoc d)) :
    ((lW).view.loc (S d c) ↦{fullShare} f : sProp 𝕄) = lLoc d ↦{fullShare} f := by
  simp only [Memref.view_whole, View.set_whole]
omit [FloatOps F] in
theorem pts_o (c : Fin τ.nSC) (f : Buf (Elt F) (oLoc d)) :
    ((oW).view.loc (S d c) ↦{fullShare} f : sProp 𝕄) = oLoc d ↦{fullShare} f := by
  simp only [Memref.view_whole, View.set_whole]
omit [FloatOps F] in
theorem pts_s (c : Fin τ.nSC) (f : Buf (Elt F) ((S d c).loc cc0_scratch0)) :
    ((sW).view.loc (S d c) ↦{fullShare} f : sProp 𝕄) = (S d c).loc cc0_scratch0 ↦{fullShare} f := by
  simp only [Memref.view_whole, View.set_whole]

/-- Every length lies in 1 … 4096. -/
def LensOK : Prop := ∀ j : S16.Idx, 1 ≤ (m (lLoc d) j : BitVec 32).toNat ∧ (m (lLoc d) j : BitVec 32).toNat ≤ 4096

omit [FloatOps F] in
/-- Row `b` of the table at time step `v - 1`, one step long and all 1024 columns wide, lies inside the table when `1 ≤ v ≤ 4096`. -/
theorem off_fits (b : ℕ) (hb : b < 16) (v : BitVec 32) (h1 : 1 ≤ v.toNat) (h2 : v.toNat ≤ 4096) :
    ∀ a : Fin 3, (![b, (Scalar.subi v 1#32).toNat, 0] : Fin 3 → ℕ) a + S1x1x1024.size a ≤ S16x4096x1024.size a := by
  have hs : (Scalar.subi v 1#32).toNat = v.toNat - 1 := by
    show (v - 1#32).toNat = _
    have := v.isLt
    rw [BitVec.toNat_sub]; simp; omega
  intro a; fin_cases a
  · show b + 1 ≤ 16; omega
  · show (Scalar.subi v 1#32).toNat + 1 ≤ 4096; rw [hs]; omega
  · show 0 + 1024 ≤ 1024; omega

/-- The word the body reads at position `b` of the staged lengths: the scratch holds the lengths array written whole. -/
abbrev wordAt (c : Fin (grid0.bound 0)) (fs : Buf (Elt F) ((S d (c.castLE hcore0)).loc cc0_scratch0)) (b : ℕ)
    (hb : ∀ a, (![b] : Fin 1 → ℕ) a + S1.size a ≤ S16.size a) (x : (Rect.unit (s := S16) ![b] S1.size hb).toLoadRect.shape.Idx) : BitVec 32 :=
  View.readAt (Elt F) (sW).view (Rect.unit (s := S16) ![b] S1.size hb).toLoadRect
    (View.write (Elt F) (sW).view fs (ReadAs.same.apply (View.read (Elt F) (lW).view (m (lLoc d)))) Finset.univ) x

omit [FloatOps F] in
/-- It is an entry of the lengths array, so it lies in 1 … 4096. -/
theorem word_in_range (hpre : LensOK m d) (c : Fin (grid0.bound 0)) (fs : Buf (Elt F) ((S d (c.castLE hcore0)).loc cc0_scratch0)) (b : ℕ)
    (hb : ∀ a, (![b] : Fin 1 → ℕ) a + S1.size a ≤ S16.size a) (x : (Rect.unit (s := S16) ![b] S1.size hb).toLoadRect.shape.Idx) :
    1 ≤ (wordAt m d c fs b hb x).toNat ∧ (wordAt m d c fs b hb x).toNat ≤ 4096 := by
  unfold wordAt
  simp only [View.readAt_apply, Memref.view_whole, View.write_whole_univ, ReadAs.apply_same, View.read_whole]
  exact hpre _

section
omit [FloatOps F]
theorem chk1_ok (hpre : LensOK m d) (c : Fin (grid0.bound 0)) (fs : Buf (Elt F) ((S d (c.castLE hcore0)).loc cc0_scratch0))
    (hb : ∀ a, (![0] : Fin 1 → ℕ) a + S1.size a ≤ S16.size a) (x : (Rect.unit (s := S16) ![0] S1.size hb).toLoadRect.shape.Idx) :
    k0_chk1 (wordAt m d c fs 0 hb x) :=
  ⟨off_fits 0 (by decide) _ (word_in_range m d hpre c fs 0 hb x).1 (word_in_range m d hpre c fs 0 hb x).2,
    off_fits 0 (by decide) _ (word_in_range m d hpre c fs 0 hb x).1 (word_in_range m d hpre c fs 0 hb x).2⟩
theorem chk2_ok (hpre : LensOK m d) (c : Fin (grid0.bound 0)) (fs : Buf (Elt F) ((S d (c.castLE hcore0)).loc cc0_scratch0))
    (hb : ∀ a, (![1] : Fin 1 → ℕ) a + S1.size a ≤ S16.size a) (x : (Rect.unit (s := S16) ![1] S1.size hb).toLoadRect.shape.Idx) :
    k0_chk2 (wordAt m d c fs 1 hb x) :=
  ⟨off_fits 1 (by decide) _ (word_in_range m d hpre c fs 1 hb x).1 (word_in_range m d hpre c fs 1 hb x).2,
    off_fits 1 (by decide) _ (word_in_range m d hpre c fs 1 hb x).1 (word_in_range m d hpre c fs 1 hb x).2⟩
theorem chk3_ok (hpre : LensOK m d) (c : Fin (grid0.bound 0)) (fs : Buf (Elt F) ((S d (c.castLE hcore0)).loc cc0_scratch0))
    (hb : ∀ a, (![2] : Fin 1 → ℕ) a + S1.size a ≤ S16.size a) (x : (Rect.unit (s := S16) ![2] S1.size hb).toLoadRect.shape.Idx) :
    k0_chk3 (wordAt m d c fs 2 hb x) :=
  ⟨off_fits 2 (by decide) _ (word_in_range m d hpre c fs 2 hb x).1 (word_in_range m d hpre c fs 2 hb x).2,
    off_fits 2 (by decide) _ (word_in_range m d hpre c fs 2 hb x).1 (word_in_range m d hpre c fs 2 hb x).2⟩
theorem chk4_ok (hpre : LensOK m d) (c : Fin (grid0.bound 0)) (fs : Buf (Elt F) ((S d (c.castLE hcore0)).loc cc0_scratch0))
    (hb : ∀ a, (![3] : Fin 1 → ℕ) a + S1.size a ≤ S16.size a) (x : (Rect.unit (s := S16) ![3] S1.size hb).toLoadRect.shape.Idx) :
    k0_chk4 (wordAt m d c fs 3 hb x) :=
  ⟨off_fits 3 (by decide) _ (word_in_range m d hpre c fs 3 hb x).1 (word_in_range m d hpre c fs 3 hb x).2,
    off_fits 3 (by decide) _ (word_in_range m d hpre c fs 3 hb x).1 (word_in_range m d hpre c fs 3 hb x).2⟩
theorem chk5_ok (hpre : LensOK m d) (c : Fin (grid0.bound 0)) (fs : Buf (Elt F) ((S d (c.castLE hcore0)).loc cc0_scratch0))
    (hb : ∀ a, (![4] : Fin 1 → ℕ) a + S1.size a ≤ S16.size a) (x : (Rect.unit (s := S16) ![4] S1.size hb).toLoadRect.shape.Idx) :
    k0_chk5 (wordAt m d c fs 4 hb x) :=
  ⟨off_fits 4 (by decide) _ (word_in_range m d hpre c fs 4 hb x).1 (word_in_range m d hpre c fs 4 hb x).2,
    off_fits 4 (by decide) _ (word_in_range m d hpre c fs 4 hb x).1 (word_in_range m d hpre c fs 4 hb x).2⟩
theorem chk6_ok (hpre : LensOK m d) (c : Fin (grid0.bound 0)) (fs : Buf (Elt F) ((S d (c.castLE hcore0)).loc cc0_scratch0))
    (hb : ∀ a, (![5] : Fin 1 → ℕ) a + S1.size a ≤ S16.size a) (x : (Rect.unit (s := S16) ![5] S1.size hb).toLoadRect.shape.Idx) :
    k0_chk6 (wordAt m d c fs 5 hb x) :=
  ⟨off_fits 5 (by decide) _ (word_in_range m d hpre c fs 5 hb x).1 (word_in_range m d hpre c fs 5 hb x).2,
    off_fits 5 (by decide) _ (word_in_range m d hpre c fs 5 hb x).1 (word_in_range m d hpre c fs 5 hb x).2⟩
theorem chk7_ok (hpre : LensOK m d) (c : Fin (grid0.bound 0)) (fs : Buf (Elt F) ((S d (c.castLE hcore0)).loc cc0_scratch0))
    (hb : ∀ a, (![6] : Fin 1 → ℕ) a + S1.size a ≤ S16.size a) (x : (Rect.unit (s := S16) ![6] S1.size hb).toLoadRect.shape.Idx) :
    k0_chk7 (wordAt m d c fs 6 hb x) :=
  ⟨off_fits 6 (by decide) _ (word_in_range m d hpre c fs 6 hb x).1 (word_in_range m d hpre c fs 6 hb x).2,
    off_fits 6 (by decide) _ (word_in_range m d hpre c fs 6 hb x).1 (word_in_range m d hpre c fs 6 hb x).2⟩
theorem chk8_ok (hpre : LensOK m d) (c : Fin (grid0.bound 0)) (fs : Buf (Elt F) ((S d (c.castLE hcore0)).loc cc0_scratch0))
    (hb : ∀ a, (![7] : Fin 1 → ℕ) a + S1.size a ≤ S16.size a) (x : (Rect.unit (s := S16) ![7] S1.size hb).toLoadRect.shape.Idx) :
    k0_chk8 (wordAt m d c fs 7 hb x) :=
  ⟨off_fits 7 (by decide) _ (word_in_range m d hpre c fs 7 hb x).1 (word_in_range m d hpre c fs 7 hb x).2,
    off_fits 7 (by decide) _ (word_in_range m d hpre c fs 7 hb x).1 (word_in_range m d hpre c fs 7 hb x).2⟩
theorem chk9_ok (hpre : LensOK m d) (c : Fin (grid0.bound 0)) (fs : Buf (Elt F) ((S d (c.castLE hcore0)).loc cc0_scratch0))
    (hb : ∀ a, (![8] : Fin 1 → ℕ) a + S1.size a ≤ S16.size a) (x : (Rect.unit (s := S16) ![8] S1.size hb).toLoadRect.shape.Idx) :
    k0_chk9 (wordAt m d c fs 8 hb x) :=
  ⟨off_fits 8 (by decide) _ (word_in_range m d hpre c fs 8 hb x).1 (word_in_range m d hpre c fs 8 hb x).2,
    off_fits 8 (by decide) _ (word_in_range m d hpre c fs 8 hb x).1 (word_in_range m d hpre c fs 8 hb x).2⟩
theorem chk10_ok (hpre : LensOK m d) (c : Fin (grid0.bound 0)) (fs : Buf (Elt F) ((S d (c.castLE hcore0)).loc cc0_scratch0))
    (hb : ∀ a, (![9] : Fin 1 → ℕ) a + S1.size a ≤ S16.size a) (x : (Rect.unit (s := S16) ![9] S1.size hb).toLoadRect.shape.Idx) :
    k0_chk10 (wordAt m d c fs 9 hb x) :=
  ⟨off_fits 9 (by decide) _ (word_in_range m d hpre c fs 9 hb x).1 (word_in_range m d hpre c fs 9 hb x).2,
    off_fits 9 (by decide) _ (word_in_range m d hpre c fs 9 hb x).1 (word_in_range m d hpre c fs 9 hb x).2⟩
theorem chk11_ok (hpre : LensOK m d) (c : Fin (grid0.bound 0)) (fs : Buf (Elt F) ((S d (c.castLE hcore0)).loc cc0_scratch0))
    (hb : ∀ a, (![10] : Fin 1 → ℕ) a + S1.size a ≤ S16.size a) (x : (Rect.unit (s := S16) ![10] S1.size hb).toLoadRect.shape.Idx) :
    k0_chk11 (wordAt m d c fs 10 hb x) :=
  ⟨off_fits 10 (by decide) _ (word_in_range m d hpre c fs 10 hb x).1 (word_in_range m d hpre c fs 10 hb x).2,
    off_fits 10 (by decide) _ (word_in_range m d hpre c fs 10 hb x).1 (word_in_range m d hpre c fs 10 hb x).2⟩
theorem chk12_ok (hpre : LensOK m d) (c : Fin (grid0.bound 0)) (fs : Buf (Elt F) ((S d (c.castLE hcore0)).loc cc0_scratch0))
    (hb : ∀ a, (![11] : Fin 1 → ℕ) a + S1.size a ≤ S16.size a) (x : (Rect.unit (s := S16) ![11] S1.size hb).toLoadRect.shape.Idx) :
    k0_chk12 (wordAt m d c fs 11 hb x) :=
  ⟨off_fits 11 (by decide) _ (word_in_range m d hpre c fs 11 hb x).1 (word_in_range m d hpre c fs 11 hb x).2,
    off_fits 11 (by decide) _ (word_in_range m d hpre c fs 11 hb x).1 (word_in_range m d hpre c fs 11 hb x).2⟩
theorem chk13_ok (hpre : LensOK m d) (c : Fin (grid0.bound 0)) (fs : Buf (Elt F) ((S d (c.castLE hcore0)).loc cc0_scratch0))
    (hb : ∀ a, (![12] : Fin 1 → ℕ) a + S1.size a ≤ S16.size a) (x : (Rect.unit (s := S16) ![12] S1.size hb).toLoadRect.shape.Idx) :
    k0_chk13 (wordAt m d c fs 12 hb x) :=
  ⟨off_fits 12 (by decide) _ (word_in_range m d hpre c fs 12 hb x).1 (word_in_range m d hpre c fs 12 hb x).2,
    off_fits 12 (by decide) _ (word_in_range m d hpre c fs 12 hb x).1 (word_in_range m d hpre c fs 12 hb x).2⟩
theorem chk14_ok (hpre : LensOK m d) (c : Fin (grid0.bound 0)) (fs : Buf (Elt F) ((S d (c.castLE hcore0)).loc cc0_scratch0))
    (hb : ∀ a, (![13] : Fin 1 → ℕ) a + S1.size a ≤ S16.size a) (x : (Rect.unit (s := S16) ![13] S1.size hb).toLoadRect.shape.Idx) :
    k0_chk14 (wordAt m d c fs 13 hb x) :=
  ⟨off_fits 13 (by decide) _ (word_in_range m d hpre c fs 13 hb x).1 (word_in_range m d hpre c fs 13 hb x).2,
    off_fits 13 (by decide) _ (word_in_range m d hpre c fs 13 hb x).1 (word_in_range m d hpre c fs 13 hb x).2⟩
theorem chk15_ok (hpre : LensOK m d) (c : Fin (grid0.bound 0)) (fs : Buf (Elt F) ((S d (c.castLE hcore0)).loc cc0_scratch0))
    (hb : ∀ a, (![14] : Fin 1 → ℕ) a + S1.size a ≤ S16.size a) (x : (Rect.unit (s := S16) ![14] S1.size hb).toLoadRect.shape.Idx) :
    k0_chk15 (wordAt m d c fs 14 hb x) :=
  ⟨off_fits 14 (by decide) _ (word_in_range m d hpre c fs 14 hb x).1 (word_in_range m d hpre c fs 14 hb x).2,
    off_fits 14 (by decide) _ (word_in_range m d hpre c fs 14 hb x).1 (word_in_range m d hpre c fs 14 hb x).2⟩
theorem chk16_ok (hpre : LensOK m d) (c : Fin (grid0.bound 0)) (fs : Buf (Elt F) ((S d (c.castLE hcore0)).loc cc0_scratch0))
    (hb : ∀ a, (![15] : Fin 1 → ℕ) a + S1.size a ≤ S16.size a) (x : (Rect.unit (s := S16) ![15] S1.size hb).toLoadRect.shape.Idx) :
    k0_chk16 (wordAt m d c fs 15 hb x) :=
  off_fits 15 (by decide) _ (word_in_range m d hpre c fs 15 hb x).1 (word_in_range m d hpre c fs 15 hb x).2
end

omit [FloatOps F] in
/-- The staged word at position `b` is the length of sequence `b`. -/
theorem word_eq (c : Fin (grid0.bound 0)) (fs : Buf (Elt F) ((S d (c.castLE hcore0)).loc cc0_scratch0)) (b : ℕ) (hb16 : b < 16)
    (hb : ∀ a, (![b] : Fin 1 → ℕ) a + S1.size a ≤ S16.size a) (x : (Rect.unit (s := S16) ![b] S1.size hb).toLoadRect.shape.Idx) :
    wordAt m d c fs b hb x = (m (lLoc d) (ix1 (⟨b, hb16⟩ : Fin 16)) : BitVec 32) := by
  unfold wordAt
  simp only [View.readAt_apply, Memref.view_whole, View.write_whole_univ, ReadAs.apply_same, View.read_whole]
  refine congrArg (m (lLoc d)) (?_ : ((Rect.unit (s := S16) ![b] S1.size hb).toLoadRect.idx x : S16.Idx) = ix1 (⟨b, hb16⟩ : Fin 16))
  funext (a : Fin 1)
  obtain rfl : a = 0 := Subsingleton.elim _ _
  refine Fin.ext ?_
  have hx : ((x 0 : Fin _) : ℕ) = 0 := by have := (x 0).isLt; simpa using this
  show b + 1 * ((x 0 : Fin _) : ℕ) = b
  rw [hx]; omega

omit [FloatOps F] in
/-- One time step of one sequence, all 1024 columns: the table's box at `(b, v - 1, 0)` of extent `1 × 1 × 1024`, its two
    unit axes merged into one, read at column `j`, is the table at `(b, v - 1, j)`. -/
theorem row_read (X : S16x4096x1024.Idx → Elt F .f32) (b : ℕ) (hb : b < 16) (v : BitVec 32) (h1 : 1 ≤ v.toNat) (h2 : v.toNat ≤ 4096)
    (hin : ∀ a, (![b, (Scalar.subi v 1#32).toNat, 0] : Fin 3 → ℕ) a + S1x1x1024.size a ≤ S16x4096x1024.size a)
    (hr : ∀ a, (Rect.unit (s := S16x4096x1024) ![b, (Scalar.subi v 1#32).toNat, 0] S1x1x1024.size hin).stride a = 1)
    (hq : S1x1x1024.Squeezes S1x1024) (x : S1x1024.Idx) :
    View.read (Elt F) (((xW).slice (Rect.unit (s := S16x4096x1024) ![b, (Scalar.subi v 1#32).toNat, 0] S1x1x1024.size hin) hr).squeeze S1x1024 hq).view X x
      = X (ix3 (⟨b, hb⟩ : Fin 16) (LastRow.step v) (x 1)) := by
  obtain ⟨p, q, rfl⟩ : ∃ (p : Fin 1) (q : Fin 1024), x = ix2 p q := ⟨x 0, x 1, eq_ix2 x⟩
  have hp : p = 0 := Subsingleton.elim _ _
  subst hp
  show shapeCast S1x1024 ((xW).view.readAt (Elt F) (Rect.unit (s := S16x4096x1024) ![b, (Scalar.subi v 1#32).toNat, 0] S1x1x1024.size hin).toLoadRect X) hq.numel_eq (ix2 0 q)
    = X (ix3 (⟨b, hb⟩ : Fin 16) (LastRow.step v) q)
  rw [shapeCast_apply _ _ _ (ix3 (0 : Fin 1) (0 : Fin 1) q) (by
    rw [Shape.rowMajor_val_three, Shape.rowMajor_val_two]; show ((0 * 1 + 0) * 1024 + q.val) = 0 * 1024 + q.val; omega)]
  show X ((Rect.unit (s := S16x4096x1024) ![b, (Scalar.subi v 1#32).toNat, 0] S1x1x1024.size hin).toLoadRect.idx (ix3 (0 : Fin 1) (0 : Fin 1) q)) = _
  refine congrArg X (funext fun a => Fin.ext ?_)
  have hs := LastRow.step_val v h1 h2
  match a with
  | ⟨0, _⟩ => show b + 1 * 0 = b; omega
  | ⟨1, _⟩ => show (Scalar.subi v 1#32).toNat + 1 * 0 = (LastRow.step v).val; rw [hs]; show (v - 1#32).toNat + 1 * 0 = _; omega
  | ⟨2, _⟩ => show 0 + 1 * q.val = q.val; omega

omit [FloatOps F] in
/-- What the copy for sequence `b` carries. Its source is the table's box at `(b, w - 1, 0)`, `w` the staged word at position
    `b`; the word is the length of sequence `b`, in `1 … 4096`, so the box is that sequence's last valid step and column `j`
    of what is carried is `x (b, l b - 1, j)`. -/
theorem carried_eq (hpre : LensOK m d) (c : Fin (grid0.bound 0)) (fs : Buf (Elt F) ((S d (c.castLE hcore0)).loc cc0_scratch0))
    (b : ℕ) (hb16 : b < 16) (hbS : ∀ a, (![b] : Fin 1 → ℕ) a + S1.size a ≤ S16.size a)
    (x0 : (Rect.unit (s := S16) ![b] S1.size hbS).toLoadRect.shape.Idx)
    (hin : ∀ a, (![b, (Scalar.subi (wordAt m d c fs b hbS x0) 1#32).toNat, 0] : Fin 3 → ℕ) a + S1x1x1024.size a ≤ S16x4096x1024.size a)
    (hr : ∀ a, (Rect.unit (s := S16x4096x1024) ![b, (Scalar.subi (wordAt m d c fs b hbS x0) 1#32).toNat, 0] S1x1x1024.size hin).stride a = 1)
    (hq : S1x1x1024.Squeezes S1x1024) (x : S1x1024.Idx) :
    ReadAs.same.apply (View.read (Elt F) (((xW).slice (Rect.unit (s := S16x4096x1024) ![b, (Scalar.subi (wordAt m d c fs b hbS x0) 1#32).toNat, 0] S1x1x1024.size hin) hr).squeeze S1x1024 hq).view (m (xLoc d))) x
      = m (xLoc d) (ix3 (⟨b, hb16⟩ : Fin 16) (LastRow.step (m (lLoc d) (ix1 (⟨b, hb16⟩ : Fin 16)))) (x 1)) := by
  have hw := word_in_range m d hpre c fs b hbS x0
  rw [ReadAs.apply_same, row_read (F := F) (m (xLoc d)) b hb16 (wordAt m d c fs b hbS x0) hw.1 hw.2 hin hr hq x,
    word_eq m d c fs b hb16 hbS x0]

omit [FloatOps F] in
/-- A row piece that is the table's last valid step of sequence `b` agrees with `lastRows` on row `b` of the result. -/
theorem piece_ok (X : S16x4096x1024.Idx → Elt F .f32) (l : S16.Idx → BitVec 32) (b : Fin 16)
    (hb : ∀ a, (![b.val, 0] : Fin 2 → ℕ) a + S1x1024.size a ≤ S16x1024.size a) (p : S1x1024.Idx → Elt F .f32)
    (hp : ∀ x, p x = X (ix3 b (LastRow.step (l (ix1 b))) (x 1))) :
    ∀ x : (Rect.unit (s := S16x1024) ![b.val, 0] S1x1024.size hb).shape.Idx,
      p x = LastRow.lastRows X l ((Rect.unit (s := S16x1024) ![b.val, 0] S1x1024.size hb).emb x) := by
  intro x
  have hx0 : ((x 0 : Fin _) : ℕ) = 0 := by have := (x 0).isLt; simpa using this
  have e0 : (Rect.unit (s := S16x1024) ![b.val, 0] S1x1024.size hb).emb x 0 = b := Fin.ext (by
    show b.val + 1 * ((x 0 : Fin _) : ℕ) = b.val; rw [hx0]; omega)
  have e1 : (Rect.unit (s := S16x1024) ![b.val, 0] S1x1024.size hb).emb x 1 = x 1 := Fin.ext (by
    show 0 + 1 * ((x 1 : Fin _) : ℕ) = _; omega)
  rw [hp x]
  show _ = X (ix3 ((Rect.unit (s := S16x1024) ![b.val, 0] S1x1024.size hb).emb x 0)
    (LastRow.step (l (ix1 ((Rect.unit (s := S16x1024) ![b.val, 0] S1x1024.size hb).emb x 0)))) ((Rect.unit (s := S16x1024) ![b.val, 0] S1x1024.size hb).emb x 1))
  rw [e0, e1]

omit [FloatOps F] in
set_option maxRecDepth 16384 in
/-- The sixteen rows cover the result array: they tile it, one row each. -/
theorem rows_cover (p0 p1 p2 p3 p4 p5 p6 p7 p8 p9 p10 p11 p12 p13 p14 p15 : S1x1024.Idx → Elt F .f32)
    (h0 : ∀ a, (![0, 0] : Fin 2 → ℕ) a + S1x1024.size a ≤ S16x1024.size a)
    (h1 : ∀ a, (![1, 0] : Fin 2 → ℕ) a + S1x1024.size a ≤ S16x1024.size a)
    (h2 : ∀ a, (![2, 0] : Fin 2 → ℕ) a + S1x1024.size a ≤ S16x1024.size a)
    (h3 : ∀ a, (![3, 0] : Fin 2 → ℕ) a + S1x1024.size a ≤ S16x1024.size a)
    (h4 : ∀ a, (![4, 0] : Fin 2 → ℕ) a + S1x1024.size a ≤ S16x1024.size a)
    (h5 : ∀ a, (![5, 0] : Fin 2 → ℕ) a + S1x1024.size a ≤ S16x1024.size a)
    (h6 : ∀ a, (![6, 0] : Fin 2 → ℕ) a + S1x1024.size a ≤ S16x1024.size a)
    (h7 : ∀ a, (![7, 0] : Fin 2 → ℕ) a + S1x1024.size a ≤ S16x1024.size a)
    (h8 : ∀ a, (![8, 0] : Fin 2 → ℕ) a + S1x1024.size a ≤ S16x1024.size a)
    (h9 : ∀ a, (![9, 0] : Fin 2 → ℕ) a + S1x1024.size a ≤ S16x1024.size a)
    (h10 : ∀ a, (![10, 0] : Fin 2 → ℕ) a + S1x1024.size a ≤ S16x1024.size a)
    (h11 : ∀ a, (![11, 0] : Fin 2 → ℕ) a + S1x1024.size a ≤ S16x1024.size a)
    (h12 : ∀ a, (![12, 0] : Fin 2 → ℕ) a + S1x1024.size a ≤ S16x1024.size a)
    (h13 : ∀ a, (![13, 0] : Fin 2 → ℕ) a + S1x1024.size a ≤ S16x1024.size a)
    (h14 : ∀ a, (![14, 0] : Fin 2 → ℕ) a + S1x1024.size a ≤ S16x1024.size a)
    (h15 : ∀ a, (![15, 0] : Fin 2 → ℕ) a + S1x1024.size a ≤ S16x1024.size a) :
    ∀ y : S16x1024.Idx, ∃ p ∈ ([⟨Rect.unit (s := S16x1024) ![15, 0] S1x1024.size h15, p15⟩,
        ⟨Rect.unit (s := S16x1024) ![14, 0] S1x1024.size h14, p14⟩,
        ⟨Rect.unit (s := S16x1024) ![13, 0] S1x1024.size h13, p13⟩,
        ⟨Rect.unit (s := S16x1024) ![12, 0] S1x1024.size h12, p12⟩,
        ⟨Rect.unit (s := S16x1024) ![11, 0] S1x1024.size h11, p11⟩,
        ⟨Rect.unit (s := S16x1024) ![10, 0] S1x1024.size h10, p10⟩,
        ⟨Rect.unit (s := S16x1024) ![9, 0] S1x1024.size h9, p9⟩,
        ⟨Rect.unit (s := S16x1024) ![8, 0] S1x1024.size h8, p8⟩,
        ⟨Rect.unit (s := S16x1024) ![7, 0] S1x1024.size h7, p7⟩,
        ⟨Rect.unit (s := S16x1024) ![6, 0] S1x1024.size h6, p6⟩,
        ⟨Rect.unit (s := S16x1024) ![5, 0] S1x1024.size h5, p5⟩,
        ⟨Rect.unit (s := S16x1024) ![4, 0] S1x1024.size h4, p4⟩,
        ⟨Rect.unit (s := S16x1024) ![3, 0] S1x1024.size h3, p3⟩,
        ⟨Rect.unit (s := S16x1024) ![2, 0] S1x1024.size h2, p2⟩,
        ⟨Rect.unit (s := S16x1024) ![1, 0] S1x1024.size h1, p1⟩,
        ⟨Rect.unit (s := S16x1024) ![0, 0] S1x1024.size h0, p0⟩] : List (View.Piece (Elt F) S16x1024 .f32)), y ∈ p.1.set :=
  View.cover_of_tiled _ ![1, 1024] (by rfl)

omit [FloatOps F] in
/-- Every one of the sixteen pieces agrees with `lastRows` where it lies. -/
theorem rows_agree (X : S16x4096x1024.Idx → Elt F .f32) (l : S16.Idx → BitVec 32)
    (p0 p1 p2 p3 p4 p5 p6 p7 p8 p9 p10 p11 p12 p13 p14 p15 : S1x1024.Idx → Elt F .f32)
    (h0 : ∀ a, (![0, 0] : Fin 2 → ℕ) a + S1x1024.size a ≤ S16x1024.size a)
    (h1 : ∀ a, (![1, 0] : Fin 2 → ℕ) a + S1x1024.size a ≤ S16x1024.size a)
    (h2 : ∀ a, (![2, 0] : Fin 2 → ℕ) a + S1x1024.size a ≤ S16x1024.size a)
    (h3 : ∀ a, (![3, 0] : Fin 2 → ℕ) a + S1x1024.size a ≤ S16x1024.size a)
    (h4 : ∀ a, (![4, 0] : Fin 2 → ℕ) a + S1x1024.size a ≤ S16x1024.size a)
    (h5 : ∀ a, (![5, 0] : Fin 2 → ℕ) a + S1x1024.size a ≤ S16x1024.size a)
    (h6 : ∀ a, (![6, 0] : Fin 2 → ℕ) a + S1x1024.size a ≤ S16x1024.size a)
    (h7 : ∀ a, (![7, 0] : Fin 2 → ℕ) a + S1x1024.size a ≤ S16x1024.size a)
    (h8 : ∀ a, (![8, 0] : Fin 2 → ℕ) a + S1x1024.size a ≤ S16x1024.size a)
    (h9 : ∀ a, (![9, 0] : Fin 2 → ℕ) a + S1x1024.size a ≤ S16x1024.size a)
    (h10 : ∀ a, (![10, 0] : Fin 2 → ℕ) a + S1x1024.size a ≤ S16x1024.size a)
    (h11 : ∀ a, (![11, 0] : Fin 2 → ℕ) a + S1x1024.size a ≤ S16x1024.size a)
    (h12 : ∀ a, (![12, 0] : Fin 2 → ℕ) a + S1x1024.size a ≤ S16x1024.size a)
    (h13 : ∀ a, (![13, 0] : Fin 2 → ℕ) a + S1x1024.size a ≤ S16x1024.size a)
    (h14 : ∀ a, (![14, 0] : Fin 2 → ℕ) a + S1x1024.size a ≤ S16x1024.size a)
    (h15 : ∀ a, (![15, 0] : Fin 2 → ℕ) a + S1x1024.size a ≤ S16x1024.size a)
    (hp0 : ∀ x, p0 x = X (ix3 (0 : Fin 16) (LastRow.step (l (ix1 (0 : Fin 16)))) (x 1)))
    (hp1 : ∀ x, p1 x = X (ix3 (1 : Fin 16) (LastRow.step (l (ix1 (1 : Fin 16)))) (x 1)))
    (hp2 : ∀ x, p2 x = X (ix3 (2 : Fin 16) (LastRow.step (l (ix1 (2 : Fin 16)))) (x 1)))
    (hp3 : ∀ x, p3 x = X (ix3 (3 : Fin 16) (LastRow.step (l (ix1 (3 : Fin 16)))) (x 1)))
    (hp4 : ∀ x, p4 x = X (ix3 (4 : Fin 16) (LastRow.step (l (ix1 (4 : Fin 16)))) (x 1)))
    (hp5 : ∀ x, p5 x = X (ix3 (5 : Fin 16) (LastRow.step (l (ix1 (5 : Fin 16)))) (x 1)))
    (hp6 : ∀ x, p6 x = X (ix3 (6 : Fin 16) (LastRow.step (l (ix1 (6 : Fin 16)))) (x 1)))
    (hp7 : ∀ x, p7 x = X (ix3 (7 : Fin 16) (LastRow.step (l (ix1 (7 : Fin 16)))) (x 1)))
    (hp8 : ∀ x, p8 x = X (ix3 (8 : Fin 16) (LastRow.step (l (ix1 (8 : Fin 16)))) (x 1)))
    (hp9 : ∀ x, p9 x = X (ix3 (9 : Fin 16) (LastRow.step (l (ix1 (9 : Fin 16)))) (x 1)))
    (hp10 : ∀ x, p10 x = X (ix3 (10 : Fin 16) (LastRow.step (l (ix1 (10 : Fin 16)))) (x 1)))
    (hp11 : ∀ x, p11 x = X (ix3 (11 : Fin 16) (LastRow.step (l (ix1 (11 : Fin 16)))) (x 1)))
    (hp12 : ∀ x, p12 x = X (ix3 (12 : Fin 16) (LastRow.step (l (ix1 (12 : Fin 16)))) (x 1)))
    (hp13 : ∀ x, p13 x = X (ix3 (13 : Fin 16) (LastRow.step (l (ix1 (13 : Fin 16)))) (x 1)))
    (hp14 : ∀ x, p14 x = X (ix3 (14 : Fin 16) (LastRow.step (l (ix1 (14 : Fin 16)))) (x 1)))
    (hp15 : ∀ x, p15 x = X (ix3 (15 : Fin 16) (LastRow.step (l (ix1 (15 : Fin 16)))) (x 1))) :
    ∀ p ∈ ([⟨Rect.unit (s := S16x1024) ![15, 0] S1x1024.size h15, p15⟩,
        ⟨Rect.unit (s := S16x1024) ![14, 0] S1x1024.size h14, p14⟩,
        ⟨Rect.unit (s := S16x1024) ![13, 0] S1x1024.size h13, p13⟩,
        ⟨Rect.unit (s := S16x1024) ![12, 0] S1x1024.size h12, p12⟩,
        ⟨Rect.unit (s := S16x1024) ![11, 0] S1x1024.size h11, p11⟩,
        ⟨Rect.unit (s := S16x1024) ![10, 0] S1x1024.size h10, p10⟩,
        ⟨Rect.unit (s := S16x1024) ![9, 0] S1x1024.size h9, p9⟩,
        ⟨Rect.unit (s := S16x1024) ![8, 0] S1x1024.size h8, p8⟩,
        ⟨Rect.unit (s := S16x1024) ![7, 0] S1x1024.size h7, p7⟩,
        ⟨Rect.unit (s := S16x1024) ![6, 0] S1x1024.size h6, p6⟩,
        ⟨Rect.unit (s := S16x1024) ![5, 0] S1x1024.size h5, p5⟩,
        ⟨Rect.unit (s := S16x1024) ![4, 0] S1x1024.size h4, p4⟩,
        ⟨Rect.unit (s := S16x1024) ![3, 0] S1x1024.size h3, p3⟩,
        ⟨Rect.unit (s := S16x1024) ![2, 0] S1x1024.size h2, p2⟩,
        ⟨Rect.unit (s := S16x1024) ![1, 0] S1x1024.size h1, p1⟩,
        ⟨Rect.unit (s := S16x1024) ![0, 0] S1x1024.size h0, p0⟩] : List (View.Piece (Elt F) S16x1024 .f32)),
      ∀ x : p.1.shape.Idx, p.2 x = LastRow.lastRows X l (p.1.emb x) := by
  refine List.forall_mem_cons.2 ⟨piece_ok X l (15 : Fin 16) h15 p15 hp15, ?_⟩
  refine List.forall_mem_cons.2 ⟨piece_ok X l (14 : Fin 16) h14 p14 hp14, ?_⟩
  refine List.forall_mem_cons.2 ⟨piece_ok X l (13 : Fin 16) h13 p13 hp13, ?_⟩
  refine List.forall_mem_cons.2 ⟨piece_ok X l (12 : Fin 16) h12 p12 hp12, ?_⟩
  refine List.forall_mem_cons.2 ⟨piece_ok X l (11 : Fin 16) h11 p11 hp11, ?_⟩
  refine List.forall_mem_cons.2 ⟨piece_ok X l (10 : Fin 16) h10 p10 hp10, ?_⟩
  refine List.forall_mem_cons.2 ⟨piece_ok X l (9 : Fin 16) h9 p9 hp9, ?_⟩
  refine List.forall_mem_cons.2 ⟨piece_ok X l (8 : Fin 16) h8 p8 hp8, ?_⟩
  refine List.forall_mem_cons.2 ⟨piece_ok X l (7 : Fin 16) h7 p7 hp7, ?_⟩
  refine List.forall_mem_cons.2 ⟨piece_ok X l (6 : Fin 16) h6 p6 hp6, ?_⟩
  refine List.forall_mem_cons.2 ⟨piece_ok X l (5 : Fin 16) h5 p5 hp5, ?_⟩
  refine List.forall_mem_cons.2 ⟨piece_ok X l (4 : Fin 16) h4 p4 hp4, ?_⟩
  refine List.forall_mem_cons.2 ⟨piece_ok X l (3 : Fin 16) h3 p3 hp3, ?_⟩
  refine List.forall_mem_cons.2 ⟨piece_ok X l (2 : Fin 16) h2 p2 hp2, ?_⟩
  refine List.forall_mem_cons.2 ⟨piece_ok X l (1 : Fin 16) h1 p1 hp1, ?_⟩
  refine List.forall_mem_cons.2 ⟨piece_ok X l (0 : Fin 16) h0 p0 hp0, ?_⟩
  exact fun _ h => nomatch h

omit [FloatOps F] in
/-- Sixteen row pieces, piece `b` the last valid step of sequence `b`, written over any contents of the result array,
    leave `lastRows`: the pieces tile the array one row each, and each agrees with `lastRows` on its row. -/
theorem rows_value (X : S16x4096x1024.Idx → Elt F .f32) (l : S16.Idx → BitVec 32) (fo : S16x1024.Idx → Elt F .f32)
    (p0 p1 p2 p3 p4 p5 p6 p7 p8 p9 p10 p11 p12 p13 p14 p15 : S1x1024.Idx → Elt F .f32)
    (h0 : ∀ a, (![0, 0] : Fin 2 → ℕ) a + S1x1024.size a ≤ S16x1024.size a)
    (h1 : ∀ a, (![1, 0] : Fin 2 → ℕ) a + S1x1024.size a ≤ S16x1024.size a)
    (h2 : ∀ a, (![2, 0] : Fin 2 → ℕ) a + S1x1024.size a ≤ S16x1024.size a)
    (h3 : ∀ a, (![3, 0] : Fin 2 → ℕ) a + S1x1024.size a ≤ S16x1024.size a)
    (h4 : ∀ a, (![4, 0] : Fin 2 → ℕ) a + S1x1024.size a ≤ S16x1024.size a)
    (h5 : ∀ a, (![5, 0] : Fin 2 → ℕ) a + S1x1024.size a ≤ S16x1024.size a)
    (h6 : ∀ a, (![6, 0] : Fin 2 → ℕ) a + S1x1024.size a ≤ S16x1024.size a)
    (h7 : ∀ a, (![7, 0] : Fin 2 → ℕ) a + S1x1024.size a ≤ S16x1024.size a)
    (h8 : ∀ a, (![8, 0] : Fin 2 → ℕ) a + S1x1024.size a ≤ S16x1024.size a)
    (h9 : ∀ a, (![9, 0] : Fin 2 → ℕ) a + S1x1024.size a ≤ S16x1024.size a)
    (h10 : ∀ a, (![10, 0] : Fin 2 → ℕ) a + S1x1024.size a ≤ S16x1024.size a)
    (h11 : ∀ a, (![11, 0] : Fin 2 → ℕ) a + S1x1024.size a ≤ S16x1024.size a)
    (h12 : ∀ a, (![12, 0] : Fin 2 → ℕ) a + S1x1024.size a ≤ S16x1024.size a)
    (h13 : ∀ a, (![13, 0] : Fin 2 → ℕ) a + S1x1024.size a ≤ S16x1024.size a)
    (h14 : ∀ a, (![14, 0] : Fin 2 → ℕ) a + S1x1024.size a ≤ S16x1024.size a)
    (h15 : ∀ a, (![15, 0] : Fin 2 → ℕ) a + S1x1024.size a ≤ S16x1024.size a)
    (hp0 : ∀ x, p0 x = X (ix3 (0 : Fin 16) (LastRow.step (l (ix1 (0 : Fin 16)))) (x 1)))
    (hp1 : ∀ x, p1 x = X (ix3 (1 : Fin 16) (LastRow.step (l (ix1 (1 : Fin 16)))) (x 1)))
    (hp2 : ∀ x, p2 x = X (ix3 (2 : Fin 16) (LastRow.step (l (ix1 (2 : Fin 16)))) (x 1)))
    (hp3 : ∀ x, p3 x = X (ix3 (3 : Fin 16) (LastRow.step (l (ix1 (3 : Fin 16)))) (x 1)))
    (hp4 : ∀ x, p4 x = X (ix3 (4 : Fin 16) (LastRow.step (l (ix1 (4 : Fin 16)))) (x 1)))
    (hp5 : ∀ x, p5 x = X (ix3 (5 : Fin 16) (LastRow.step (l (ix1 (5 : Fin 16)))) (x 1)))
    (hp6 : ∀ x, p6 x = X (ix3 (6 : Fin 16) (LastRow.step (l (ix1 (6 : Fin 16)))) (x 1)))
    (hp7 : ∀ x, p7 x = X (ix3 (7 : Fin 16) (LastRow.step (l (ix1 (7 : Fin 16)))) (x 1)))
    (hp8 : ∀ x, p8 x = X (ix3 (8 : Fin 16) (LastRow.step (l (ix1 (8 : Fin 16)))) (x 1)))
    (hp9 : ∀ x, p9 x = X (ix3 (9 : Fin 16) (LastRow.step (l (ix1 (9 : Fin 16)))) (x 1)))
    (hp10 : ∀ x, p10 x = X (ix3 (10 : Fin 16) (LastRow.step (l (ix1 (10 : Fin 16)))) (x 1)))
    (hp11 : ∀ x, p11 x = X (ix3 (11 : Fin 16) (LastRow.step (l (ix1 (11 : Fin 16)))) (x 1)))
    (hp12 : ∀ x, p12 x = X (ix3 (12 : Fin 16) (LastRow.step (l (ix1 (12 : Fin 16)))) (x 1)))
    (hp13 : ∀ x, p13 x = X (ix3 (13 : Fin 16) (LastRow.step (l (ix1 (13 : Fin 16)))) (x 1)))
    (hp14 : ∀ x, p14 x = X (ix3 (14 : Fin 16) (LastRow.step (l (ix1 (14 : Fin 16)))) (x 1)))
    (hp15 : ∀ x, p15 x = X (ix3 (15 : Fin 16) (LastRow.step (l (ix1 (15 : Fin 16)))) (x 1))) :
    (oW).view.writes (Elt F) fo
      [⟨Rect.unit (s := S16x1024) ![15, 0] S1x1024.size h15, p15⟩,
        ⟨Rect.unit (s := S16x1024) ![14, 0] S1x1024.size h14, p14⟩,
        ⟨Rect.unit (s := S16x1024) ![13, 0] S1x1024.size h13, p13⟩,
        ⟨Rect.unit (s := S16x1024) ![12, 0] S1x1024.size h12, p12⟩,
        ⟨Rect.unit (s := S16x1024) ![11, 0] S1x1024.size h11, p11⟩,
        ⟨Rect.unit (s := S16x1024) ![10, 0] S1x1024.size h10, p10⟩,
        ⟨Rect.unit (s := S16x1024) ![9, 0] S1x1024.size h9, p9⟩,
        ⟨Rect.unit (s := S16x1024) ![8, 0] S1x1024.size h8, p8⟩,
        ⟨Rect.unit (s := S16x1024) ![7, 0] S1x1024.size h7, p7⟩,
        ⟨Rect.unit (s := S16x1024) ![6, 0] S1x1024.size h6, p6⟩,
        ⟨Rect.unit (s := S16x1024) ![5, 0] S1x1024.size h5, p5⟩,
        ⟨Rect.unit (s := S16x1024) ![4, 0] S1x1024.size h4, p4⟩,
        ⟨Rect.unit (s := S16x1024) ![3, 0] S1x1024.size h3, p3⟩,
        ⟨Rect.unit (s := S16x1024) ![2, 0] S1x1024.size h2, p2⟩,
        ⟨Rect.unit (s := S16x1024) ![1, 0] S1x1024.size h1, p1⟩,
        ⟨Rect.unit (s := S16x1024) ![0, 0] S1x1024.size h0, p0⟩]
      = LastRow.lastRows X l := by
  have h : ∀ y, (oW).view.read (Elt F) ((oW).view.writes (Elt F) fo
      [⟨Rect.unit (s := S16x1024) ![15, 0] S1x1024.size h15, p15⟩,
        ⟨Rect.unit (s := S16x1024) ![14, 0] S1x1024.size h14, p14⟩,
        ⟨Rect.unit (s := S16x1024) ![13, 0] S1x1024.size h13, p13⟩,
        ⟨Rect.unit (s := S16x1024) ![12, 0] S1x1024.size h12, p12⟩,
        ⟨Rect.unit (s := S16x1024) ![11, 0] S1x1024.size h11, p11⟩,
        ⟨Rect.unit (s := S16x1024) ![10, 0] S1x1024.size h10, p10⟩,
        ⟨Rect.unit (s := S16x1024) ![9, 0] S1x1024.size h9, p9⟩,
        ⟨Rect.unit (s := S16x1024) ![8, 0] S1x1024.size h8, p8⟩,
        ⟨Rect.unit (s := S16x1024) ![7, 0] S1x1024.size h7, p7⟩,
        ⟨Rect.unit (s := S16x1024) ![6, 0] S1x1024.size h6, p6⟩,
        ⟨Rect.unit (s := S16x1024) ![5, 0] S1x1024.size h5, p5⟩,
        ⟨Rect.unit (s := S16x1024) ![4, 0] S1x1024.size h4, p4⟩,
        ⟨Rect.unit (s := S16x1024) ![3, 0] S1x1024.size h3, p3⟩,
        ⟨Rect.unit (s := S16x1024) ![2, 0] S1x1024.size h2, p2⟩,
        ⟨Rect.unit (s := S16x1024) ![1, 0] S1x1024.size h1, p1⟩,
        ⟨Rect.unit (s := S16x1024) ![0, 0] S1x1024.size h0, p0⟩]) y = LastRow.lastRows X l y := fun y =>
    View.read_writes_apply_of_pieces (v := (oW).view) (f := fo) (LastRow.lastRows X l) _
      (rows_agree X l p0 p1 p2 p3 p4 p5 p6 p7 p8 p9 p10 p11 p12 p13 p14 p15 h0 h1 h2 h3 h4 h5 h6 h7 h8 h9 h10 h11 h12 h13 h14 h15 hp0 hp1 hp2 hp3 hp4 hp5 hp6 hp7 hp8 hp9 hp10 hp11 hp12 hp13 hp14 hp15) y (rows_cover p0 p1 p2 p3 p4 p5 p6 p7 p8 p9 p10 p11 p12 p13 p14 p15 h0 h1 h2 h3 h4 h5 h6 h7 h8 h9 h10 h11 h12 h13 h14 h15 y)
  simp only [Memref.view_whole, View.read_whole] at h ⊢
  exact funext h

end Body

end Cert.Proof.IdealStage

end
-- ==== Proof.IdealBody.lean ====
/-
  The idealized kernel's body, run once on the sequencer, for any reading of the floats.

  From the table and the lengths at their launch contents, the result array at whatever it holds, the sequencer's scalar
  scratch and its two transfer semaphores at zero: the lengths are copied into the scratch and waited for; each of the sixteen
  words is read and found in range (`IdealStage.chk1_ok` …); the sixteen row copies are started on the one semaphore and
  drained by sixteen waits, and only the last wait hands anything back — all sixteen rows at once, since until the semaphore
  has been paid in full no single copy is known to have landed. Nothing reads or writes the table or the result between the
  first start and the last wait, so the order in which the copies complete does not matter.
  At the end the table and the lengths are as they were and the result array is sixteen rows written over its old contents,
  row `b` the box the table holds at `(b, l b - 1, 0)`: that is `LastRow.lastRows` (`IdealStage.rows_value`, each row by
  `IdealStage.carried_eq`).
-/
import proofs.«217033_g62302795596241_cont_9to1_m_195_7_alg».proof.Proof.IdealStage

noncomputable section

namespace Cert.Proof.IdealBody

open Cert.KernelIdeal Cert.KernelIdeal.Gen Cert.Proof.IdealStage

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

local notation "xW" => (Memref.whole Cert.KernelIdeal.main_arg0_scs : Memref Cert.KernelIdeal.sig Kind.scScalar Space.hbm Cert.KernelIdeal.S16x4096x1024 EltTy.f32)
local notation "lW" => (Memref.whole Cert.KernelIdeal.main_arg1_scs : Memref Cert.KernelIdeal.sig Kind.scScalar Space.hbm Cert.KernelIdeal.S16 EltTy.i32)
local notation "oW" => (Memref.whole Cert.KernelIdeal.main_v0_scs : Memref Cert.KernelIdeal.sig Kind.scScalar Space.hbm Cert.KernelIdeal.S16x1024 EltTy.f32)
local notation "sW" => (Memref.whole Cert.KernelIdeal.cc0_scratch0 : Memref Cert.KernelIdeal.sig Kind.scScalar Space.smem Cert.KernelIdeal.S16 EltTy.i32)

variable [FloatOps F] (d : Dev nD)

/-- The kernel on the sequencer, from start to end: the lengths staged and waited for; sixteen words read, each in range;
    sixteen copies started on one semaphore and drained by sixteen waits; the table and the lengths back unchanged and the
    result array at `lastRows`. -/
theorem body (hF : (K (F := F)).Facts) (c : Fin (grid0.bound 0)) (hpre : LensOK m d) (O : CellTallies nD τ sig (HIx 1)) (W : Waits sig (HIx 1)) (hO : ∀ g, O g none = 0) :
    iprop(levAts (K (F := F)).L (K (F := F)).lev ∗ emp ∗ given m d
        ∗ scopedBufs (Sq d c) ∗ scopedSems0 (Sq d c) ∗ owes (Sq d c) O W)
      ⊢ wp frame (wpE (defs₀ (F := F)) 𝒱₀ (Sq d c) none) Set.univ
          (cc0__body (coordsS c) xW (Memref.isWhole_whole _) lW (Memref.isWhole_whole _) oW (Memref.isWhole_whole _) sW (Memref.isWhole_whole _) cc0_scratch1 cc0_scoped0)
          fun _ => iprop(back m d ∗ scopedBufs (Sq d c) ∗ scopedSems0 (Sq d c) ∗ ∃ W', ⌜∀ p ∈ W', p ∈ W ∨ p.2 = none⌝ ∗ owes (Sq d c) O W') := by
  have plan : Transfers.BatchOf (Sq d c) (SemLoc.dma (sig := sig) cc0_scratch1.sem) 16 (windows := true) := trivial
  unfold given
  iintro ⟨#Hlv, -, ⟨Hx, Hl, %fo, Ho⟩, Hsb, Hss, HO⟩
  ihave Hsb' := ((K (F := F)).scopedBufs_S_elim hF d (c.castLE hcore0)) $$ Hsb
  icases Hsb' with ⟨Hob, Hsubb⟩
  ihave Hob' := (Entails.of_eq (ownBufs_S (F := F) d (c.castLE hcore0))) $$ Hob
  icases Hob' with ⟨⟨%fs, Hs⟩, Hrestb⟩
  ihave Hss' := (SparseCore.Cfg.scopedSems0_S_elim (Val := Elt F) d (c.castLE hcore0)) $$ Hss
  icases Hss' with ⟨Hown, Hsubs⟩
  ihave Hown' := (Entails.of_eq (ownSems0_S (F := F) d (c.castLE hcore0))) $$ Hown
  icases Hown' with ⟨HsemA, HsemB, Hrest⟩
  ihave Hmw := ((K (F := F)).mayWaits_none (thr := Sq d c) hO) $$ Hlv
  ihave Hx' := (Entails.of_eq (pts_x (F := F) d (c.castLE hcore0) _).symm) $$ Hx
  ihave Hl' := (Entails.of_eq (pts_l (F := F) d (c.castLE hcore0) _).symm) $$ Hl
  ihave Ho' := (Entails.of_eq (pts_o (F := F) d (c.castLE hcore0) _).symm) $$ Ho
  ihave Hs' := (Entails.of_eq (pts_s (F := F) d (c.castLE hcore0) _).symm) $$ Hs
  sl_unfold [cc0__body]
  sl_exec_parts (disch := first
      | exact chk1_ok m d hpre c fs _ _
      | exact chk2_ok m d hpre c fs _ _
      | exact chk3_ok m d hpre c fs _ _
      | exact chk4_ok m d hpre c fs _ _
      | exact chk5_ok m d hpre c fs _ _
      | exact chk6_ok m d hpre c fs _ _
      | exact chk7_ok m d hpre c fs _ _
      | exact chk8_ok m d hpre c fs _ _
      | exact chk9_ok m d hpre c fs _ _
      | exact chk10_ok m d hpre c fs _ _
      | exact chk11_ok m d hpre c fs _ _
      | exact chk12_ok m d hpre c fs _ _
      | exact chk13_ok m d hpre c fs _ _
      | exact chk14_ok m d hpre c fs _ _
      | exact chk15_ok m d hpre c fs _ _
      | exact chk16_ok m d hpre c fs _ _)
  sl_step
  unfold back
  isplitl [Hx' Hl' Ho']
  · isplitl [Hx']; · iapply (Entails.of_eq (pts_x (F := F) d _ _)); iexact Hx'
    isplitl [Hl']; · iapply (Entails.of_eq (pts_l (F := F) d _ _)); iexact Hl'
    iapply (Entails.of_eq (pts_o (F := F) d (c.castLE hcore0) _))
    ihave Ho2 := (Entails.of_eq (congrArg (fun f => ((oW).view.loc (S d (c.castLE hcore0)) ↦{fullShare} f : sProp 𝕄))
      (rows_value (F := F) (m (xLoc d)) (m (lLoc d)) fo _ _ _ _ _ _ _ _ _ _ _ _ _ _ _ _ _ _ _ _ _ _ _ _ _ _ _ _ _ _ _ _ ?hp0 ?hp1 ?hp2 ?hp3 ?hp4 ?hp5 ?hp6 ?hp7 ?hp8 ?hp9 ?hp10 ?hp11 ?hp12 ?hp13 ?hp14 ?hp15))) $$ Ho'
    case hp0 => exact fun x => carried_eq m d hpre c fs 0 (by decide) _ _ _ _ _ x
    case hp1 => exact fun x => carried_eq m d hpre c fs 1 (by decide) _ _ _ _ _ x
    case hp2 => exact fun x => carried_eq m d hpre c fs 2 (by decide) _ _ _ _ _ x
    case hp3 => exact fun x => carried_eq m d hpre c fs 3 (by decide) _ _ _ _ _ x
    case hp4 => exact fun x => carried_eq m d hpre c fs 4 (by decide) _ _ _ _ _ x
    case hp5 => exact fun x => carried_eq m d hpre c fs 5 (by decide) _ _ _ _ _ x
    case hp6 => exact fun x => carried_eq m d hpre c fs 6 (by decide) _ _ _ _ _ x
    case hp7 => exact fun x => carried_eq m d hpre c fs 7 (by decide) _ _ _ _ _ x
    case hp8 => exact fun x => carried_eq m d hpre c fs 8 (by decide) _ _ _ _ _ x
    case hp9 => exact fun x => carried_eq m d hpre c fs 9 (by decide) _ _ _ _ _ x
    case hp10 => exact fun x => carried_eq m d hpre c fs 10 (by decide) _ _ _ _ _ x
    case hp11 => exact fun x => carried_eq m d hpre c fs 11 (by decide) _ _ _ _ _ x
    case hp12 => exact fun x => carried_eq m d hpre c fs 12 (by decide) _ _ _ _ _ x
    case hp13 => exact fun x => carried_eq m d hpre c fs 13 (by decide) _ _ _ _ _ x
    case hp14 => exact fun x => carried_eq m d hpre c fs 14 (by decide) _ _ _ _ _ x
    case hp15 => exact fun x => carried_eq m d hpre c fs 15 (by decide) _ _ _ _ _ x
    iexact Ho2
  isplitl [Hs' Hrestb Hsubb]
  · iapply ((K (F := F)).scopedBufs_S_intro hF d (c.castLE hcore0))
    isplitl [Hs' Hrestb]
    · rw [ownBufs_S]
      isplitl [Hs']
      · iexists _; iapply (Entails.of_eq (pts_s (F := F) d (c.castLE hcore0) _)); iexact Hs'
      · iexact Hrestb
    · iexact Hsubb
  isplitl [HsemA HsemB Hrest Hsubs]
  · iapply (SparseCore.Cfg.scopedSems0_S_intro (Val := Elt F) d (c.castLE hcore0))
    isplitl [HsemA HsemB Hrest]
    · rw [ownSems0_S]
      isplitl [HsemA]; · iexact HsemA
      isplitl [HsemB]; · iexact HsemB
      iexact Hrest
    · iexact Hsubs
  iexists _; isplitr
  rotate_left
  · iexact HO
  · ipureintro; intro p hp
    repeat (rcases Finset.mem_insert.mp hp with hp | hp; exact .inr (hp ▸ rfl))
    exact .inl hp

end Cert.Proof.IdealBody

end
-- ==== Proof.IdealLaunch.lean ====
/-
  The idealized kernel launched: from the body's run on the one sequencer to the run of the whole device.

  The device's threads are its TensorCore, which runs @main — one call of the SparseCore kernel and nothing else —, the two
  sequencers and the thirty-two tiles; only sequencer 0 is in the call's grid. The call hands that sequencer the table, the
  lengths and the result array and takes them back with the result filled (`IdealStage.given`, `IdealStage.back`); the kernel
  signals nobody but itself, so it owes the launch nothing of its own. The launch theorem then gives: every weakly fair
  execution of all the threads ends, nothing faults, and in the final memory the result array is `LastRow.lastRows` of the table
  and the lengths, both of which are unchanged (`run_main`) — provided every length lies in 1 … 4096.
-/
import proofs.«217033_g62302795596241_cont_9to1_m_195_7_alg».proof.Proof.IdealBody

noncomputable section

namespace Cert.Proof.IdealLaunch

open Cert.KernelIdeal Cert.KernelIdeal.Gen Cert.Proof.IdealStage Cert.Proof.IdealBody

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.KernelIdeal.main_arg0_scs : Memref Cert.KernelIdeal.sig Kind.scScalar Space.hbm Cert.KernelIdeal.S16x4096x1024 EltTy.f32)
local notation "lW" => (Memref.whole Cert.KernelIdeal.main_arg1_scs : Memref Cert.KernelIdeal.sig Kind.scScalar Space.hbm Cert.KernelIdeal.S16 EltTy.i32)
local notation "oW" => (Memref.whole Cert.KernelIdeal.main_v0_scs : Memref Cert.KernelIdeal.sig Kind.scScalar Space.hbm Cert.KernelIdeal.S16x1024 EltTy.f32)
local notation "sW" => (Memref.whole Cert.KernelIdeal.cc0_scratch0 : Memref Cert.KernelIdeal.sig Kind.scScalar Space.smem Cert.KernelIdeal.S16 EltTy.i32)

variable [FloatOps F]

/-! ## What the one call carries -/

instance given_storable (d : Dev nD) : BI.Storable (upEmb : UEmb _ 𝕄) (given m d) := by unfold given; infer_instance
instance back_storable (d : Dev nD) : BI.Storable (upEmb : UEmb _ 𝕄) (back m d) := by unfold back; infer_instance

/-- The call's payloads: the three arrays to the one SparseCore, and back with the result filled; nothing else. -/
def P : (K (F := F)).Pay (nD := nD) (Val := Elt F) (Name := ℕ) (U := UU) where
  st := fun _ d _ => given m d
  dn := fun _ d _ => back m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligation -/

theorem defs₀_scalar (c : Fin τ.nSC) :
    defs₀ (F := F) (.scScalar c) 0 ()
      = SparseCore.onCore hcore0 (fun c => cc0__body (coordsS c) xW (Memref.isWhole_whole _) lW (Memref.isWhole_whole _) oW (Memref.isWhole_whole _) sW (Memref.isWhole_whole _) cc0_scratch1 cc0_scoped0) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The scalar call's obligation: the one sequencer runs `body`. -/
theorem scalarObl (hpre : ∀ d, LensOK m d) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ given m d ∗ _) ⊢ wp _ _ _ _ (fun _ => iprop(back m d ∗ _))
  match c with
  | ⟨0, h⟩ => exact (body m d facts ⟨0, h⟩ (hpre d) O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore: the one call -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (lLoc d ↦{fullShare} W main_arg1) ∗ (oLoc d ↦{fullShare} W main_v0)) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = given m d := by
  show (bigSep (Finset.univ : Finset (Fin 1)) fun _ => given m d) = _
  rw [show (Finset.univ : Finset (Fin 1)) = {0} by decide, bigSep_singleton]
theorem dn0_eq (d : Dev nD) : (bigSep Finset.univ fun c : Fin ((K (F := F)).nCore 0) => (P m).dn 0 d c) = back m d := by
  show (bigSep (Finset.univ : Finset (Fin 1)) fun _ => back m d) = _
  rw [show (Finset.univ : Finset (Fin 1)) = {0} by decide, bigSep_singleton]

/-- What @main leaves the claim. -/
abbrev FIN (d : Dev nD) : sProp 𝕄 := back m d

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hl, Ho⟩, -, -⟩, -⟩
  iapply ((K (F := F)).wp_run (D (F := F)) 𝒱 (EH := EH) (P := P m) κ d 0) $$ [Hst Hx Hl Ho]
  isplitr; · iexact Hctx
  isplitl [Hst]; · iexact Hst
  isplitl [Hx Hl Ho]
  · rw [st0_eq]; unfold given
    isplitl [Hx]; · iexact Hx
    isplitl [Hl]; · iexact Hl
    iexists _; iexact Ho
  iintro ⟨Hst, Hdn⟩
  ihave Hdn' := (Entails.of_eq (dn0_eq m d)) $$ Hdn
  imodintro
  isplitl [Hst]; · iexact Hst
  iexact Hdn'

/-- The final memory, read through what @main leaves. -/
def fq (d : Dev nD) (s' : Phys nD τ sig (Elt F)) : Prop :=
  s'.mem.mem (oLoc d) = LastRow.lastRows (m (xLoc d)) (m (lLoc d)) ∧ s'.mem.mem (xLoc d) = m (xLoc d) ∧ s'.mem.mem (lLoc d) = m (lLoc d)

theorem hfin (d : Dev nD) (s' : Phys nD τ sig (Elt F)) : iprop(FIN m d ∗ SI s') ⊢ (⌜fq m d s'⌝ : sProp 𝕄) := by
  unfold FIN back
  iintro ⟨⟨Hx, Hl, Ho⟩, HSI⟩
  icombine HSI Hx gives %hx
  icombine HSI Hl gives %hl
  icombine HSI Ho gives %ho
  ipureintro
  exact ⟨funext fun i => ho i (Finset.mem_univ i), funext fun i => hx i (Finset.mem_univ i), funext fun i => hl i (Finset.mem_univ i)⟩

/-! ## The program's run -/

def QC : PUnit × MemSt nD τ sig (Elt F) → Prop := fun r => ∀ c : Dev nD,
  r.2.mem (oLoc c) = LastRow.lastRows (m (xLoc c)) (m (lLoc c)) ∧ r.2.mem (xLoc c) = m (xLoc c) ∧ r.2.mem (lLoc c) = m (lLoc c)

/-- Every weakly fair execution of the device's threads ends, faulting nowhere, with the result array at `lastRows` of the
    table and the lengths, both unchanged — given that every length lies in 1 … 4096. -/
theorem run_main [∀ e, Nonempty (Elt F e)] (hpre : ∀ d, LensOK m d) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m hpre)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h => h)

end Cert.Proof.IdealLaunch

end
-- ==== Proof.WordStage.lean ====
/-
  The kernel as printed, before it is run: what one sequencer is handed, and the arithmetic of its sixteen copies.

  The same text as for the idealized program, over the printed one: the ideal pass rewrote no operation of this kernel, and
  nothing below depends on how a float is read — the kernel only moves the table's entries. One sequencer copies the 16 lengths
  `l` into its scalar memory, reads them back, and for sequence `b` copies the table's box at `(b, l b - 1, 0)` of extent
  1 × 1 × 1024 into row `b` of the result; the copies are started together on one semaphore and then waited for.
    * Under `1 ≤ l b ≤ 4096` every source box lies inside the table (`off_fits`, `chk1_ok` … `chk16_ok`).
    * The word read back at position `b` of the scratch is `l b` (`word_eq`).
    * The box for sequence `b`, read at column `j`, is `x (b, l b - 1, j)` (`row_read`, `carried_eq`).
    * Sixteen such rows tile the result and leave `LastRow.lastRows x l` (`rows_cover`, `rows_agree`, `rows_value`).
-/
import proofs.«217033_g62302795596241_cont_9to1_m_195_7_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«217033_g62302795596241_cont_9to1_m_195_7_alg».proof.Proof.Gen.Kernel
import proofs.«217033_g62302795596241_cont_9to1_m_195_7_alg».proof.Proof.Gen.Kernel.Skeleton
import proofs.«217033_g62302795596241_cont_9to1_m_195_7_alg».proof.Proof.LastRow
import Idealize.ShloMosaic.Lib.Pipeline.Value
import Idealize.ShloMosaic.Lib.ValueIdx
import Idealize.ShloMosaic.Lib.ValueLayout

noncomputable section

namespace Cert.Proof.WordStage

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

local notation "xW" => (Memref.whole Cert.Kernel.main_arg0_scs : Memref Cert.Kernel.sig Kind.scScalar Space.hbm Cert.Kernel.S16x4096x1024 EltTy.f32)
local notation "lW" => (Memref.whole Cert.Kernel.main_arg1_scs : Memref Cert.Kernel.sig Kind.scScalar Space.hbm Cert.Kernel.S16 EltTy.i32)
local notation "oW" => (Memref.whole Cert.Kernel.main_v0_scs : Memref Cert.Kernel.sig Kind.scScalar Space.hbm Cert.Kernel.S16x1024 EltTy.f32)
local notation "sW" => (Memref.whole Cert.Kernel.cc0_scratch0 : Memref Cert.Kernel.sig Kind.scScalar Space.smem Cert.Kernel.S16 EltTy.i32)
abbrev xLoc (d : Dev nD) : Loc nD τ sig := (SparseCore.T d).loc main_arg0
abbrev lLoc (d : Dev nD) : Loc nD τ sig := (SparseCore.T d).loc main_arg1
abbrev oLoc (d : Dev nD) : Loc nD τ sig := (SparseCore.T d).loc main_v0

variable [FloatOps F]

abbrev xPts (d : Dev nD) : sProp 𝕄 := xLoc d ↦{fullShare} m (xLoc d)
abbrev lPts (d : Dev nD) : sProp 𝕄 := lLoc d ↦{fullShare} m (lLoc d)
abbrev oPts (d : Dev nD) (f : Buf (Elt F) (oLoc d)) : sProp 𝕄 := oLoc d ↦{fullShare} f

/-- What the call hands the one SparseCore: the table and the lengths at their launch contents, the result array at whatever it holds. -/
def given (d : Dev nD) : sProp 𝕄 := iprop(xPts m d ∗ lPts m d ∗ ∃ f, oPts d f)
/-- What it takes back: the table and the lengths unchanged, the result array at each sequence's last valid step. -/
def back (d : Dev nD) : sProp 𝕄 := iprop(xPts m d ∗ lPts m d ∗ oPts d (LastRow.lastRows (m (xLoc d)) (m (lLoc d))))

/-! ## The kernel's body on the sequencer -/

section Body

variable (d : Dev nD)

def coordsS (c : Fin (grid0.bound 0)) : grid0.Coords := fun | 0 => c | ⟨_ + 1, h⟩ => absurd h (Nat.not_lt.2 (Nat.le_add_left _ _))

abbrev Sq (c : Fin (grid0.bound 0)) : Thread nD τ := S d (c.castLE hcore0)

abbrev cellA (c : Fin τ.nSC) : GSem nD τ sig := (S d c, .dma cc0_scratch1.sem)
abbrev cellB (c : Fin τ.nSC) : GSem nD τ sig := (S d c, .dma cc0_scoped0.sem)

omit [FloatOps F] in
theorem ownSems0_S (c : Fin τ.nSC) :
    (ownSems0 (S d c) : sProp 𝕄) = iprop(semVal (cellA d c) 0 ∗ semVal (cellB d c) 0
      ∗ bigSep (((ownCells (S d c)).erase (cellA d c)).erase (cellB d c)) fun g => semVal g 0) := by
  unfold SparseCore.Cfg.ownSems0
  rw [SparseCore.bigSep_erase' ((mem_ownCells (g := cellA d c)).mpr ⟨rfl, by
      show (SemLoc.dma cc0_scratch1.sem : SemLoc sig).isScoped .scScalar = true; decide⟩),
    SparseCore.bigSep_erase' (Finset.mem_erase.mpr ⟨by simp [cellA, cellB]; decide, (mem_ownCells (g := cellB d c)).mpr ⟨rfl, by
      show (SemLoc.dma cc0_scoped0.sem : SemLoc sig).isScoped .scScalar = true; decide⟩⟩)]

omit [FloatOps F] in
theorem ownBufs_S (c : Fin τ.nSC) :
    (ownBufs (S d c) : sProp 𝕄)
      = iprop((∃ f, (S d c).loc cc0_scratch0 ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scScalar c) (b := (Proc.scScalar c).devRef cc0_scratch0) rfl)

omit [FloatOps F] in
theorem pts_x (c : Fin τ.nSC) (f : Buf (Elt F) (xLoc d)) :
    ((xW).view.loc (S d c) ↦{fullShare} f : sProp 𝕄) = xLoc d ↦{fullShare} f := by
  simp only [Memref.view_whole, View.set_whole]
omit [FloatOps F] in
theorem pts_l (c : Fin τ.nSC) (f : Buf (Elt F) (lLoc d)) :
    ((lW).view.loc (S d c) ↦{fullShare} f : sProp 𝕄) = lLoc d ↦{fullShare} f := by
  simp only [Memref.view_whole, View.set_whole]
omit [FloatOps F] in
theorem pts_o (c : Fin τ.nSC) (f : Buf (Elt F) (oLoc d)) :
    ((oW).view.loc (S d c) ↦{fullShare} f : sProp 𝕄) = oLoc d ↦{fullShare} f := by
  simp only [Memref.view_whole, View.set_whole]
omit [FloatOps F] in
theorem pts_s (c : Fin τ.nSC) (f : Buf (Elt F) ((S d c).loc cc0_scratch0)) :
    ((sW).view.loc (S d c) ↦{fullShare} f : sProp 𝕄) = (S d c).loc cc0_scratch0 ↦{fullShare} f := by
  simp only [Memref.view_whole, View.set_whole]

/-- Every length lies in 1 … 4096. -/
def LensOK : Prop := ∀ j : S16.Idx, 1 ≤ (m (lLoc d) j : BitVec 32).toNat ∧ (m (lLoc d) j : BitVec 32).toNat ≤ 4096

omit [FloatOps F] in
/-- Row `b` of the table at time step `v - 1`, one step long and all 1024 columns wide, lies inside the table when `1 ≤ v ≤ 4096`. -/
theorem off_fits (b : ℕ) (hb : b < 16) (v : BitVec 32) (h1 : 1 ≤ v.toNat) (h2 : v.toNat ≤ 4096) :
    ∀ a : Fin 3, (![b, (Scalar.subi v 1#32).toNat, 0] : Fin 3 → ℕ) a + S1x1x1024.size a ≤ S16x4096x1024.size a := by
  have hs : (Scalar.subi v 1#32).toNat = v.toNat - 1 := by
    show (v - 1#32).toNat = _
    have := v.isLt
    rw [BitVec.toNat_sub]; simp; omega
  intro a; fin_cases a
  · show b + 1 ≤ 16; omega
  · show (Scalar.subi v 1#32).toNat + 1 ≤ 4096; rw [hs]; omega
  · show 0 + 1024 ≤ 1024; omega

/-- The word the body reads at position `b` of the staged lengths: the scratch holds the lengths array written whole. -/
abbrev wordAt (c : Fin (grid0.bound 0)) (fs : Buf (Elt F) ((S d (c.castLE hcore0)).loc cc0_scratch0)) (b : ℕ)
    (hb : ∀ a, (![b] : Fin 1 → ℕ) a + S1.size a ≤ S16.size a) (x : (Rect.unit (s := S16) ![b] S1.size hb).toLoadRect.shape.Idx) : BitVec 32 :=
  View.readAt (Elt F) (sW).view (Rect.unit (s := S16) ![b] S1.size hb).toLoadRect
    (View.write (Elt F) (sW).view fs (ReadAs.same.apply (View.read (Elt F) (lW).view (m (lLoc d)))) Finset.univ) x

omit [FloatOps F] in
/-- It is an entry of the lengths array, so it lies in 1 … 4096. -/
theorem word_in_range (hpre : LensOK m d) (c : Fin (grid0.bound 0)) (fs : Buf (Elt F) ((S d (c.castLE hcore0)).loc cc0_scratch0)) (b : ℕ)
    (hb : ∀ a, (![b] : Fin 1 → ℕ) a + S1.size a ≤ S16.size a) (x : (Rect.unit (s := S16) ![b] S1.size hb).toLoadRect.shape.Idx) :
    1 ≤ (wordAt m d c fs b hb x).toNat ∧ (wordAt m d c fs b hb x).toNat ≤ 4096 := by
  unfold wordAt
  simp only [View.readAt_apply, Memref.view_whole, View.write_whole_univ, ReadAs.apply_same, View.read_whole]
  exact hpre _

section
omit [FloatOps F]
theorem chk1_ok (hpre : LensOK m d) (c : Fin (grid0.bound 0)) (fs : Buf (Elt F) ((S d (c.castLE hcore0)).loc cc0_scratch0))
    (hb : ∀ a, (![0] : Fin 1 → ℕ) a + S1.size a ≤ S16.size a) (x : (Rect.unit (s := S16) ![0] S1.size hb).toLoadRect.shape.Idx) :
    k0_chk1 (wordAt m d c fs 0 hb x) :=
  ⟨off_fits 0 (by decide) _ (word_in_range m d hpre c fs 0 hb x).1 (word_in_range m d hpre c fs 0 hb x).2,
    off_fits 0 (by decide) _ (word_in_range m d hpre c fs 0 hb x).1 (word_in_range m d hpre c fs 0 hb x).2⟩
theorem chk2_ok (hpre : LensOK m d) (c : Fin (grid0.bound 0)) (fs : Buf (Elt F) ((S d (c.castLE hcore0)).loc cc0_scratch0))
    (hb : ∀ a, (![1] : Fin 1 → ℕ) a + S1.size a ≤ S16.size a) (x : (Rect.unit (s := S16) ![1] S1.size hb).toLoadRect.shape.Idx) :
    k0_chk2 (wordAt m d c fs 1 hb x) :=
  ⟨off_fits 1 (by decide) _ (word_in_range m d hpre c fs 1 hb x).1 (word_in_range m d hpre c fs 1 hb x).2,
    off_fits 1 (by decide) _ (word_in_range m d hpre c fs 1 hb x).1 (word_in_range m d hpre c fs 1 hb x).2⟩
theorem chk3_ok (hpre : LensOK m d) (c : Fin (grid0.bound 0)) (fs : Buf (Elt F) ((S d (c.castLE hcore0)).loc cc0_scratch0))
    (hb : ∀ a, (![2] : Fin 1 → ℕ) a + S1.size a ≤ S16.size a) (x : (Rect.unit (s := S16) ![2] S1.size hb).toLoadRect.shape.Idx) :
    k0_chk3 (wordAt m d c fs 2 hb x) :=
  ⟨off_fits 2 (by decide) _ (word_in_range m d hpre c fs 2 hb x).1 (word_in_range m d hpre c fs 2 hb x).2,
    off_fits 2 (by decide) _ (word_in_range m d hpre c fs 2 hb x).1 (word_in_range m d hpre c fs 2 hb x).2⟩
theorem chk4_ok (hpre : LensOK m d) (c : Fin (grid0.bound 0)) (fs : Buf (Elt F) ((S d (c.castLE hcore0)).loc cc0_scratch0))
    (hb : ∀ a, (![3] : Fin 1 → ℕ) a + S1.size a ≤ S16.size a) (x : (Rect.unit (s := S16) ![3] S1.size hb).toLoadRect.shape.Idx) :
    k0_chk4 (wordAt m d c fs 3 hb x) :=
  ⟨off_fits 3 (by decide) _ (word_in_range m d hpre c fs 3 hb x).1 (word_in_range m d hpre c fs 3 hb x).2,
    off_fits 3 (by decide) _ (word_in_range m d hpre c fs 3 hb x).1 (word_in_range m d hpre c fs 3 hb x).2⟩
theorem chk5_ok (hpre : LensOK m d) (c : Fin (grid0.bound 0)) (fs : Buf (Elt F) ((S d (c.castLE hcore0)).loc cc0_scratch0))
    (hb : ∀ a, (![4] : Fin 1 → ℕ) a + S1.size a ≤ S16.size a) (x : (Rect.unit (s := S16) ![4] S1.size hb).toLoadRect.shape.Idx) :
    k0_chk5 (wordAt m d c fs 4 hb x) :=
  ⟨off_fits 4 (by decide) _ (word_in_range m d hpre c fs 4 hb x).1 (word_in_range m d hpre c fs 4 hb x).2,
    off_fits 4 (by decide) _ (word_in_range m d hpre c fs 4 hb x).1 (word_in_range m d hpre c fs 4 hb x).2⟩
theorem chk6_ok (hpre : LensOK m d) (c : Fin (grid0.bound 0)) (fs : Buf (Elt F) ((S d (c.castLE hcore0)).loc cc0_scratch0))
    (hb : ∀ a, (![5] : Fin 1 → ℕ) a + S1.size a ≤ S16.size a) (x : (Rect.unit (s := S16) ![5] S1.size hb).toLoadRect.shape.Idx) :
    k0_chk6 (wordAt m d c fs 5 hb x) :=
  ⟨off_fits 5 (by decide) _ (word_in_range m d hpre c fs 5 hb x).1 (word_in_range m d hpre c fs 5 hb x).2,
    off_fits 5 (by decide) _ (word_in_range m d hpre c fs 5 hb x).1 (word_in_range m d hpre c fs 5 hb x).2⟩
theorem chk7_ok (hpre : LensOK m d) (c : Fin (grid0.bound 0)) (fs : Buf (Elt F) ((S d (c.castLE hcore0)).loc cc0_scratch0))
    (hb : ∀ a, (![6] : Fin 1 → ℕ) a + S1.size a ≤ S16.size a) (x : (Rect.unit (s := S16) ![6] S1.size hb).toLoadRect.shape.Idx) :
    k0_chk7 (wordAt m d c fs 6 hb x) :=
  ⟨off_fits 6 (by decide) _ (word_in_range m d hpre c fs 6 hb x).1 (word_in_range m d hpre c fs 6 hb x).2,
    off_fits 6 (by decide) _ (word_in_range m d hpre c fs 6 hb x).1 (word_in_range m d hpre c fs 6 hb x).2⟩
theorem chk8_ok (hpre : LensOK m d) (c : Fin (grid0.bound 0)) (fs : Buf (Elt F) ((S d (c.castLE hcore0)).loc cc0_scratch0))
    (hb : ∀ a, (![7] : Fin 1 → ℕ) a + S1.size a ≤ S16.size a) (x : (Rect.unit (s := S16) ![7] S1.size hb).toLoadRect.shape.Idx) :
    k0_chk8 (wordAt m d c fs 7 hb x) :=
  ⟨off_fits 7 (by decide) _ (word_in_range m d hpre c fs 7 hb x).1 (word_in_range m d hpre c fs 7 hb x).2,
    off_fits 7 (by decide) _ (word_in_range m d hpre c fs 7 hb x).1 (word_in_range m d hpre c fs 7 hb x).2⟩
theorem chk9_ok (hpre : LensOK m d) (c : Fin (grid0.bound 0)) (fs : Buf (Elt F) ((S d (c.castLE hcore0)).loc cc0_scratch0))
    (hb : ∀ a, (![8] : Fin 1 → ℕ) a + S1.size a ≤ S16.size a) (x : (Rect.unit (s := S16) ![8] S1.size hb).toLoadRect.shape.Idx) :
    k0_chk9 (wordAt m d c fs 8 hb x) :=
  ⟨off_fits 8 (by decide) _ (word_in_range m d hpre c fs 8 hb x).1 (word_in_range m d hpre c fs 8 hb x).2,
    off_fits 8 (by decide) _ (word_in_range m d hpre c fs 8 hb x).1 (word_in_range m d hpre c fs 8 hb x).2⟩
theorem chk10_ok (hpre : LensOK m d) (c : Fin (grid0.bound 0)) (fs : Buf (Elt F) ((S d (c.castLE hcore0)).loc cc0_scratch0))
    (hb : ∀ a, (![9] : Fin 1 → ℕ) a + S1.size a ≤ S16.size a) (x : (Rect.unit (s := S16) ![9] S1.size hb).toLoadRect.shape.Idx) :
    k0_chk10 (wordAt m d c fs 9 hb x) :=
  ⟨off_fits 9 (by decide) _ (word_in_range m d hpre c fs 9 hb x).1 (word_in_range m d hpre c fs 9 hb x).2,
    off_fits 9 (by decide) _ (word_in_range m d hpre c fs 9 hb x).1 (word_in_range m d hpre c fs 9 hb x).2⟩
theorem chk11_ok (hpre : LensOK m d) (c : Fin (grid0.bound 0)) (fs : Buf (Elt F) ((S d (c.castLE hcore0)).loc cc0_scratch0))
    (hb : ∀ a, (![10] : Fin 1 → ℕ) a + S1.size a ≤ S16.size a) (x : (Rect.unit (s := S16) ![10] S1.size hb).toLoadRect.shape.Idx) :
    k0_chk11 (wordAt m d c fs 10 hb x) :=
  ⟨off_fits 10 (by decide) _ (word_in_range m d hpre c fs 10 hb x).1 (word_in_range m d hpre c fs 10 hb x).2,
    off_fits 10 (by decide) _ (word_in_range m d hpre c fs 10 hb x).1 (word_in_range m d hpre c fs 10 hb x).2⟩
theorem chk12_ok (hpre : LensOK m d) (c : Fin (grid0.bound 0)) (fs : Buf (Elt F) ((S d (c.castLE hcore0)).loc cc0_scratch0))
    (hb : ∀ a, (![11] : Fin 1 → ℕ) a + S1.size a ≤ S16.size a) (x : (Rect.unit (s := S16) ![11] S1.size hb).toLoadRect.shape.Idx) :
    k0_chk12 (wordAt m d c fs 11 hb x) :=
  ⟨off_fits 11 (by decide) _ (word_in_range m d hpre c fs 11 hb x).1 (word_in_range m d hpre c fs 11 hb x).2,
    off_fits 11 (by decide) _ (word_in_range m d hpre c fs 11 hb x).1 (word_in_range m d hpre c fs 11 hb x).2⟩
theorem chk13_ok (hpre : LensOK m d) (c : Fin (grid0.bound 0)) (fs : Buf (Elt F) ((S d (c.castLE hcore0)).loc cc0_scratch0))
    (hb : ∀ a, (![12] : Fin 1 → ℕ) a + S1.size a ≤ S16.size a) (x : (Rect.unit (s := S16) ![12] S1.size hb).toLoadRect.shape.Idx) :
    k0_chk13 (wordAt m d c fs 12 hb x) :=
  ⟨off_fits 12 (by decide) _ (word_in_range m d hpre c fs 12 hb x).1 (word_in_range m d hpre c fs 12 hb x).2,
    off_fits 12 (by decide) _ (word_in_range m d hpre c fs 12 hb x).1 (word_in_range m d hpre c fs 12 hb x).2⟩
theorem chk14_ok (hpre : LensOK m d) (c : Fin (grid0.bound 0)) (fs : Buf (Elt F) ((S d (c.castLE hcore0)).loc cc0_scratch0))
    (hb : ∀ a, (![13] : Fin 1 → ℕ) a + S1.size a ≤ S16.size a) (x : (Rect.unit (s := S16) ![13] S1.size hb).toLoadRect.shape.Idx) :
    k0_chk14 (wordAt m d c fs 13 hb x) :=
  ⟨off_fits 13 (by decide) _ (word_in_range m d hpre c fs 13 hb x).1 (word_in_range m d hpre c fs 13 hb x).2,
    off_fits 13 (by decide) _ (word_in_range m d hpre c fs 13 hb x).1 (word_in_range m d hpre c fs 13 hb x).2⟩
theorem chk15_ok (hpre : LensOK m d) (c : Fin (grid0.bound 0)) (fs : Buf (Elt F) ((S d (c.castLE hcore0)).loc cc0_scratch0))
    (hb : ∀ a, (![14] : Fin 1 → ℕ) a + S1.size a ≤ S16.size a) (x : (Rect.unit (s := S16) ![14] S1.size hb).toLoadRect.shape.Idx) :
    k0_chk15 (wordAt m d c fs 14 hb x) :=
  ⟨off_fits 14 (by decide) _ (word_in_range m d hpre c fs 14 hb x).1 (word_in_range m d hpre c fs 14 hb x).2,
    off_fits 14 (by decide) _ (word_in_range m d hpre c fs 14 hb x).1 (word_in_range m d hpre c fs 14 hb x).2⟩
theorem chk16_ok (hpre : LensOK m d) (c : Fin (grid0.bound 0)) (fs : Buf (Elt F) ((S d (c.castLE hcore0)).loc cc0_scratch0))
    (hb : ∀ a, (![15] : Fin 1 → ℕ) a + S1.size a ≤ S16.size a) (x : (Rect.unit (s := S16) ![15] S1.size hb).toLoadRect.shape.Idx) :
    k0_chk16 (wordAt m d c fs 15 hb x) :=
  off_fits 15 (by decide) _ (word_in_range m d hpre c fs 15 hb x).1 (word_in_range m d hpre c fs 15 hb x).2
end

omit [FloatOps F] in
/-- The staged word at position `b` is the length of sequence `b`. -/
theorem word_eq (c : Fin (grid0.bound 0)) (fs : Buf (Elt F) ((S d (c.castLE hcore0)).loc cc0_scratch0)) (b : ℕ) (hb16 : b < 16)
    (hb : ∀ a, (![b] : Fin 1 → ℕ) a + S1.size a ≤ S16.size a) (x : (Rect.unit (s := S16) ![b] S1.size hb).toLoadRect.shape.Idx) :
    wordAt m d c fs b hb x = (m (lLoc d) (ix1 (⟨b, hb16⟩ : Fin 16)) : BitVec 32) := by
  unfold wordAt
  simp only [View.readAt_apply, Memref.view_whole, View.write_whole_univ, ReadAs.apply_same, View.read_whole]
  refine congrArg (m (lLoc d)) (?_ : ((Rect.unit (s := S16) ![b] S1.size hb).toLoadRect.idx x : S16.Idx) = ix1 (⟨b, hb16⟩ : Fin 16))
  funext (a : Fin 1)
  obtain rfl : a = 0 := Subsingleton.elim _ _
  refine Fin.ext ?_
  have hx : ((x 0 : Fin _) : ℕ) = 0 := by have := (x 0).isLt; simpa using this
  show b + 1 * ((x 0 : Fin _) : ℕ) = b
  rw [hx]; omega

omit [FloatOps F] in
/-- One time step of one sequence, all 1024 columns: the table's box at `(b, v - 1, 0)` of extent `1 × 1 × 1024`, its two
    unit axes merged into one, read at column `j`, is the table at `(b, v - 1, j)`. -/
theorem row_read (X : S16x4096x1024.Idx → Elt F .f32) (b : ℕ) (hb : b < 16) (v : BitVec 32) (h1 : 1 ≤ v.toNat) (h2 : v.toNat ≤ 4096)
    (hin : ∀ a, (![b, (Scalar.subi v 1#32).toNat, 0] : Fin 3 → ℕ) a + S1x1x1024.size a ≤ S16x4096x1024.size a)
    (hr : ∀ a, (Rect.unit (s := S16x4096x1024) ![b, (Scalar.subi v 1#32).toNat, 0] S1x1x1024.size hin).stride a = 1)
    (hq : S1x1x1024.Squeezes S1x1024) (x : S1x1024.Idx) :
    View.read (Elt F) (((xW).slice (Rect.unit (s := S16x4096x1024) ![b, (Scalar.subi v 1#32).toNat, 0] S1x1x1024.size hin) hr).squeeze S1x1024 hq).view X x
      = X (ix3 (⟨b, hb⟩ : Fin 16) (LastRow.step v) (x 1)) := by
  obtain ⟨p, q, rfl⟩ : ∃ (p : Fin 1) (q : Fin 1024), x = ix2 p q := ⟨x 0, x 1, eq_ix2 x⟩
  have hp : p = 0 := Subsingleton.elim _ _
  subst hp
  show shapeCast S1x1024 ((xW).view.readAt (Elt F) (Rect.unit (s := S16x4096x1024) ![b, (Scalar.subi v 1#32).toNat, 0] S1x1x1024.size hin).toLoadRect X) hq.numel_eq (ix2 0 q)
    = X (ix3 (⟨b, hb⟩ : Fin 16) (LastRow.step v) q)
  rw [shapeCast_apply _ _ _ (ix3 (0 : Fin 1) (0 : Fin 1) q) (by
    rw [Shape.rowMajor_val_three, Shape.rowMajor_val_two]; show ((0 * 1 + 0) * 1024 + q.val) = 0 * 1024 + q.val; omega)]
  show X ((Rect.unit (s := S16x4096x1024) ![b, (Scalar.subi v 1#32).toNat, 0] S1x1x1024.size hin).toLoadRect.idx (ix3 (0 : Fin 1) (0 : Fin 1) q)) = _
  refine congrArg X (funext fun a => Fin.ext ?_)
  have hs := LastRow.step_val v h1 h2
  match a with
  | ⟨0, _⟩ => show b + 1 * 0 = b; omega
  | ⟨1, _⟩ => show (Scalar.subi v 1#32).toNat + 1 * 0 = (LastRow.step v).val; rw [hs]; show (v - 1#32).toNat + 1 * 0 = _; omega
  | ⟨2, _⟩ => show 0 + 1 * q.val = q.val; omega

omit [FloatOps F] in
/-- What the copy for sequence `b` carries. Its source is the table's box at `(b, w - 1, 0)`, `w` the staged word at position
    `b`; the word is the length of sequence `b`, in `1 … 4096`, so the box is that sequence's last valid step and column `j`
    of what is carried is `x (b, l b - 1, j)`. -/
theorem carried_eq (hpre : LensOK m d) (c : Fin (grid0.bound 0)) (fs : Buf (Elt F) ((S d (c.castLE hcore0)).loc cc0_scratch0))
    (b : ℕ) (hb16 : b < 16) (hbS : ∀ a, (![b] : Fin 1 → ℕ) a + S1.size a ≤ S16.size a)
    (x0 : (Rect.unit (s := S16) ![b] S1.size hbS).toLoadRect.shape.Idx)
    (hin : ∀ a, (![b, (Scalar.subi (wordAt m d c fs b hbS x0) 1#32).toNat, 0] : Fin 3 → ℕ) a + S1x1x1024.size a ≤ S16x4096x1024.size a)
    (hr : ∀ a, (Rect.unit (s := S16x4096x1024) ![b, (Scalar.subi (wordAt m d c fs b hbS x0) 1#32).toNat, 0] S1x1x1024.size hin).stride a = 1)
    (hq : S1x1x1024.Squeezes S1x1024) (x : S1x1024.Idx) :
    ReadAs.same.apply (View.read (Elt F) (((xW).slice (Rect.unit (s := S16x4096x1024) ![b, (Scalar.subi (wordAt m d c fs b hbS x0) 1#32).toNat, 0] S1x1x1024.size hin) hr).squeeze S1x1024 hq).view (m (xLoc d))) x
      = m (xLoc d) (ix3 (⟨b, hb16⟩ : Fin 16) (LastRow.step (m (lLoc d) (ix1 (⟨b, hb16⟩ : Fin 16)))) (x 1)) := by
  have hw := word_in_range m d hpre c fs b hbS x0
  rw [ReadAs.apply_same, row_read (F := F) (m (xLoc d)) b hb16 (wordAt m d c fs b hbS x0) hw.1 hw.2 hin hr hq x,
    word_eq m d c fs b hb16 hbS x0]

omit [FloatOps F] in
/-- A row piece that is the table's last valid step of sequence `b` agrees with `lastRows` on row `b` of the result. -/
theorem piece_ok (X : S16x4096x1024.Idx → Elt F .f32) (l : S16.Idx → BitVec 32) (b : Fin 16)
    (hb : ∀ a, (![b.val, 0] : Fin 2 → ℕ) a + S1x1024.size a ≤ S16x1024.size a) (p : S1x1024.Idx → Elt F .f32)
    (hp : ∀ x, p x = X (ix3 b (LastRow.step (l (ix1 b))) (x 1))) :
    ∀ x : (Rect.unit (s := S16x1024) ![b.val, 0] S1x1024.size hb).shape.Idx,
      p x = LastRow.lastRows X l ((Rect.unit (s := S16x1024) ![b.val, 0] S1x1024.size hb).emb x) := by
  intro x
  have hx0 : ((x 0 : Fin _) : ℕ) = 0 := by have := (x 0).isLt; simpa using this
  have e0 : (Rect.unit (s := S16x1024) ![b.val, 0] S1x1024.size hb).emb x 0 = b := Fin.ext (by
    show b.val + 1 * ((x 0 : Fin _) : ℕ) = b.val; rw [hx0]; omega)
  have e1 : (Rect.unit (s := S16x1024) ![b.val, 0] S1x1024.size hb).emb x 1 = x 1 := Fin.ext (by
    show 0 + 1 * ((x 1 : Fin _) : ℕ) = _; omega)
  rw [hp x]
  show _ = X (ix3 ((Rect.unit (s := S16x1024) ![b.val, 0] S1x1024.size hb).emb x 0)
    (LastRow.step (l (ix1 ((Rect.unit (s := S16x1024) ![b.val, 0] S1x1024.size hb).emb x 0)))) ((Rect.unit (s := S16x1024) ![b.val, 0] S1x1024.size hb).emb x 1))
  rw [e0, e1]

omit [FloatOps F] in
set_option maxRecDepth 16384 in
/-- The sixteen rows cover the result array: they tile it, one row each. -/
theorem rows_cover (p0 p1 p2 p3 p4 p5 p6 p7 p8 p9 p10 p11 p12 p13 p14 p15 : S1x1024.Idx → Elt F .f32)
    (h0 : ∀ a, (![0, 0] : Fin 2 → ℕ) a + S1x1024.size a ≤ S16x1024.size a)
    (h1 : ∀ a, (![1, 0] : Fin 2 → ℕ) a + S1x1024.size a ≤ S16x1024.size a)
    (h2 : ∀ a, (![2, 0] : Fin 2 → ℕ) a + S1x1024.size a ≤ S16x1024.size a)
    (h3 : ∀ a, (![3, 0] : Fin 2 → ℕ) a + S1x1024.size a ≤ S16x1024.size a)
    (h4 : ∀ a, (![4, 0] : Fin 2 → ℕ) a + S1x1024.size a ≤ S16x1024.size a)
    (h5 : ∀ a, (![5, 0] : Fin 2 → ℕ) a + S1x1024.size a ≤ S16x1024.size a)
    (h6 : ∀ a, (![6, 0] : Fin 2 → ℕ) a + S1x1024.size a ≤ S16x1024.size a)
    (h7 : ∀ a, (![7, 0] : Fin 2 → ℕ) a + S1x1024.size a ≤ S16x1024.size a)
    (h8 : ∀ a, (![8, 0] : Fin 2 → ℕ) a + S1x1024.size a ≤ S16x1024.size a)
    (h9 : ∀ a, (![9, 0] : Fin 2 → ℕ) a + S1x1024.size a ≤ S16x1024.size a)
    (h10 : ∀ a, (![10, 0] : Fin 2 → ℕ) a + S1x1024.size a ≤ S16x1024.size a)
    (h11 : ∀ a, (![11, 0] : Fin 2 → ℕ) a + S1x1024.size a ≤ S16x1024.size a)
    (h12 : ∀ a, (![12, 0] : Fin 2 → ℕ) a + S1x1024.size a ≤ S16x1024.size a)
    (h13 : ∀ a, (![13, 0] : Fin 2 → ℕ) a + S1x1024.size a ≤ S16x1024.size a)
    (h14 : ∀ a, (![14, 0] : Fin 2 → ℕ) a + S1x1024.size a ≤ S16x1024.size a)
    (h15 : ∀ a, (![15, 0] : Fin 2 → ℕ) a + S1x1024.size a ≤ S16x1024.size a) :
    ∀ y : S16x1024.Idx, ∃ p ∈ ([⟨Rect.unit (s := S16x1024) ![15, 0] S1x1024.size h15, p15⟩,
        ⟨Rect.unit (s := S16x1024) ![14, 0] S1x1024.size h14, p14⟩,
        ⟨Rect.unit (s := S16x1024) ![13, 0] S1x1024.size h13, p13⟩,
        ⟨Rect.unit (s := S16x1024) ![12, 0] S1x1024.size h12, p12⟩,
        ⟨Rect.unit (s := S16x1024) ![11, 0] S1x1024.size h11, p11⟩,
        ⟨Rect.unit (s := S16x1024) ![10, 0] S1x1024.size h10, p10⟩,
        ⟨Rect.unit (s := S16x1024) ![9, 0] S1x1024.size h9, p9⟩,
        ⟨Rect.unit (s := S16x1024) ![8, 0] S1x1024.size h8, p8⟩,
        ⟨Rect.unit (s := S16x1024) ![7, 0] S1x1024.size h7, p7⟩,
        ⟨Rect.unit (s := S16x1024) ![6, 0] S1x1024.size h6, p6⟩,
        ⟨Rect.unit (s := S16x1024) ![5, 0] S1x1024.size h5, p5⟩,
        ⟨Rect.unit (s := S16x1024) ![4, 0] S1x1024.size h4, p4⟩,
        ⟨Rect.unit (s := S16x1024) ![3, 0] S1x1024.size h3, p3⟩,
        ⟨Rect.unit (s := S16x1024) ![2, 0] S1x1024.size h2, p2⟩,
        ⟨Rect.unit (s := S16x1024) ![1, 0] S1x1024.size h1, p1⟩,
        ⟨Rect.unit (s := S16x1024) ![0, 0] S1x1024.size h0, p0⟩] : List (View.Piece (Elt F) S16x1024 .f32)), y ∈ p.1.set :=
  View.cover_of_tiled _ ![1, 1024] (by rfl)

omit [FloatOps F] in
/-- Every one of the sixteen pieces agrees with `lastRows` where it lies. -/
theorem rows_agree (X : S16x4096x1024.Idx → Elt F .f32) (l : S16.Idx → BitVec 32)
    (p0 p1 p2 p3 p4 p5 p6 p7 p8 p9 p10 p11 p12 p13 p14 p15 : S1x1024.Idx → Elt F .f32)
    (h0 : ∀ a, (![0, 0] : Fin 2 → ℕ) a + S1x1024.size a ≤ S16x1024.size a)
    (h1 : ∀ a, (![1, 0] : Fin 2 → ℕ) a + S1x1024.size a ≤ S16x1024.size a)
    (h2 : ∀ a, (![2, 0] : Fin 2 → ℕ) a + S1x1024.size a ≤ S16x1024.size a)
    (h3 : ∀ a, (![3, 0] : Fin 2 → ℕ) a + S1x1024.size a ≤ S16x1024.size a)
    (h4 : ∀ a, (![4, 0] : Fin 2 → ℕ) a + S1x1024.size a ≤ S16x1024.size a)
    (h5 : ∀ a, (![5, 0] : Fin 2 → ℕ) a + S1x1024.size a ≤ S16x1024.size a)
    (h6 : ∀ a, (![6, 0] : Fin 2 → ℕ) a + S1x1024.size a ≤ S16x1024.size a)
    (h7 : ∀ a, (![7, 0] : Fin 2 → ℕ) a + S1x1024.size a ≤ S16x1024.size a)
    (h8 : ∀ a, (![8, 0] : Fin 2 → ℕ) a + S1x1024.size a ≤ S16x1024.size a)
    (h9 : ∀ a, (![9, 0] : Fin 2 → ℕ) a + S1x1024.size a ≤ S16x1024.size a)
    (h10 : ∀ a, (![10, 0] : Fin 2 → ℕ) a + S1x1024.size a ≤ S16x1024.size a)
    (h11 : ∀ a, (![11, 0] : Fin 2 → ℕ) a + S1x1024.size a ≤ S16x1024.size a)
    (h12 : ∀ a, (![12, 0] : Fin 2 → ℕ) a + S1x1024.size a ≤ S16x1024.size a)
    (h13 : ∀ a, (![13, 0] : Fin 2 → ℕ) a + S1x1024.size a ≤ S16x1024.size a)
    (h14 : ∀ a, (![14, 0] : Fin 2 → ℕ) a + S1x1024.size a ≤ S16x1024.size a)
    (h15 : ∀ a, (![15, 0] : Fin 2 → ℕ) a + S1x1024.size a ≤ S16x1024.size a)
    (hp0 : ∀ x, p0 x = X (ix3 (0 : Fin 16) (LastRow.step (l (ix1 (0 : Fin 16)))) (x 1)))
    (hp1 : ∀ x, p1 x = X (ix3 (1 : Fin 16) (LastRow.step (l (ix1 (1 : Fin 16)))) (x 1)))
    (hp2 : ∀ x, p2 x = X (ix3 (2 : Fin 16) (LastRow.step (l (ix1 (2 : Fin 16)))) (x 1)))
    (hp3 : ∀ x, p3 x = X (ix3 (3 : Fin 16) (LastRow.step (l (ix1 (3 : Fin 16)))) (x 1)))
    (hp4 : ∀ x, p4 x = X (ix3 (4 : Fin 16) (LastRow.step (l (ix1 (4 : Fin 16)))) (x 1)))
    (hp5 : ∀ x, p5 x = X (ix3 (5 : Fin 16) (LastRow.step (l (ix1 (5 : Fin 16)))) (x 1)))
    (hp6 : ∀ x, p6 x = X (ix3 (6 : Fin 16) (LastRow.step (l (ix1 (6 : Fin 16)))) (x 1)))
    (hp7 : ∀ x, p7 x = X (ix3 (7 : Fin 16) (LastRow.step (l (ix1 (7 : Fin 16)))) (x 1)))
    (hp8 : ∀ x, p8 x = X (ix3 (8 : Fin 16) (LastRow.step (l (ix1 (8 : Fin 16)))) (x 1)))
    (hp9 : ∀ x, p9 x = X (ix3 (9 : Fin 16) (LastRow.step (l (ix1 (9 : Fin 16)))) (x 1)))
    (hp10 : ∀ x, p10 x = X (ix3 (10 : Fin 16) (LastRow.step (l (ix1 (10 : Fin 16)))) (x 1)))
    (hp11 : ∀ x, p11 x = X (ix3 (11 : Fin 16) (LastRow.step (l (ix1 (11 : Fin 16)))) (x 1)))
    (hp12 : ∀ x, p12 x = X (ix3 (12 : Fin 16) (LastRow.step (l (ix1 (12 : Fin 16)))) (x 1)))
    (hp13 : ∀ x, p13 x = X (ix3 (13 : Fin 16) (LastRow.step (l (ix1 (13 : Fin 16)))) (x 1)))
    (hp14 : ∀ x, p14 x = X (ix3 (14 : Fin 16) (LastRow.step (l (ix1 (14 : Fin 16)))) (x 1)))
    (hp15 : ∀ x, p15 x = X (ix3 (15 : Fin 16) (LastRow.step (l (ix1 (15 : Fin 16)))) (x 1))) :
    ∀ p ∈ ([⟨Rect.unit (s := S16x1024) ![15, 0] S1x1024.size h15, p15⟩,
        ⟨Rect.unit (s := S16x1024) ![14, 0] S1x1024.size h14, p14⟩,
        ⟨Rect.unit (s := S16x1024) ![13, 0] S1x1024.size h13, p13⟩,
        ⟨Rect.unit (s := S16x1024) ![12, 0] S1x1024.size h12, p12⟩,
        ⟨Rect.unit (s := S16x1024) ![11, 0] S1x1024.size h11, p11⟩,
        ⟨Rect.unit (s := S16x1024) ![10, 0] S1x1024.size h10, p10⟩,
        ⟨Rect.unit (s := S16x1024) ![9, 0] S1x1024.size h9, p9⟩,
        ⟨Rect.unit (s := S16x1024) ![8, 0] S1x1024.size h8, p8⟩,
        ⟨Rect.unit (s := S16x1024) ![7, 0] S1x1024.size h7, p7⟩,
        ⟨Rect.unit (s := S16x1024) ![6, 0] S1x1024.size h6, p6⟩,
        ⟨Rect.unit (s := S16x1024) ![5, 0] S1x1024.size h5, p5⟩,
        ⟨Rect.unit (s := S16x1024) ![4, 0] S1x1024.size h4, p4⟩,
        ⟨Rect.unit (s := S16x1024) ![3, 0] S1x1024.size h3, p3⟩,
        ⟨Rect.unit (s := S16x1024) ![2, 0] S1x1024.size h2, p2⟩,
        ⟨Rect.unit (s := S16x1024) ![1, 0] S1x1024.size h1, p1⟩,
        ⟨Rect.unit (s := S16x1024) ![0, 0] S1x1024.size h0, p0⟩] : List (View.Piece (Elt F) S16x1024 .f32)),
      ∀ x : p.1.shape.Idx, p.2 x = LastRow.lastRows X l (p.1.emb x) := by
  refine List.forall_mem_cons.2 ⟨piece_ok X l (15 : Fin 16) h15 p15 hp15, ?_⟩
  refine List.forall_mem_cons.2 ⟨piece_ok X l (14 : Fin 16) h14 p14 hp14, ?_⟩
  refine List.forall_mem_cons.2 ⟨piece_ok X l (13 : Fin 16) h13 p13 hp13, ?_⟩
  refine List.forall_mem_cons.2 ⟨piece_ok X l (12 : Fin 16) h12 p12 hp12, ?_⟩
  refine List.forall_mem_cons.2 ⟨piece_ok X l (11 : Fin 16) h11 p11 hp11, ?_⟩
  refine List.forall_mem_cons.2 ⟨piece_ok X l (10 : Fin 16) h10 p10 hp10, ?_⟩
  refine List.forall_mem_cons.2 ⟨piece_ok X l (9 : Fin 16) h9 p9 hp9, ?_⟩
  refine List.forall_mem_cons.2 ⟨piece_ok X l (8 : Fin 16) h8 p8 hp8, ?_⟩
  refine List.forall_mem_cons.2 ⟨piece_ok X l (7 : Fin 16) h7 p7 hp7, ?_⟩
  refine List.forall_mem_cons.2 ⟨piece_ok X l (6 : Fin 16) h6 p6 hp6, ?_⟩
  refine List.forall_mem_cons.2 ⟨piece_ok X l (5 : Fin 16) h5 p5 hp5, ?_⟩
  refine List.forall_mem_cons.2 ⟨piece_ok X l (4 : Fin 16) h4 p4 hp4, ?_⟩
  refine List.forall_mem_cons.2 ⟨piece_ok X l (3 : Fin 16) h3 p3 hp3, ?_⟩
  refine List.forall_mem_cons.2 ⟨piece_ok X l (2 : Fin 16) h2 p2 hp2, ?_⟩
  refine List.forall_mem_cons.2 ⟨piece_ok X l (1 : Fin 16) h1 p1 hp1, ?_⟩
  refine List.forall_mem_cons.2 ⟨piece_ok X l (0 : Fin 16) h0 p0 hp0, ?_⟩
  exact fun _ h => nomatch h

omit [FloatOps F] in
/-- Sixteen row pieces, piece `b` the last valid step of sequence `b`, written over any contents of the result array,
    leave `lastRows`: the pieces tile the array one row each, and each agrees with `lastRows` on its row. -/
theorem rows_value (X : S16x4096x1024.Idx → Elt F .f32) (l : S16.Idx → BitVec 32) (fo : S16x1024.Idx → Elt F .f32)
    (p0 p1 p2 p3 p4 p5 p6 p7 p8 p9 p10 p11 p12 p13 p14 p15 : S1x1024.Idx → Elt F .f32)
    (h0 : ∀ a, (![0, 0] : Fin 2 → ℕ) a + S1x1024.size a ≤ S16x1024.size a)
    (h1 : ∀ a, (![1, 0] : Fin 2 → ℕ) a + S1x1024.size a ≤ S16x1024.size a)
    (h2 : ∀ a, (![2, 0] : Fin 2 → ℕ) a + S1x1024.size a ≤ S16x1024.size a)
    (h3 : ∀ a, (![3, 0] : Fin 2 → ℕ) a + S1x1024.size a ≤ S16x1024.size a)
    (h4 : ∀ a, (![4, 0] : Fin 2 → ℕ) a + S1x1024.size a ≤ S16x1024.size a)
    (h5 : ∀ a, (![5, 0] : Fin 2 → ℕ) a + S1x1024.size a ≤ S16x1024.size a)
    (h6 : ∀ a, (![6, 0] : Fin 2 → ℕ) a + S1x1024.size a ≤ S16x1024.size a)
    (h7 : ∀ a, (![7, 0] : Fin 2 → ℕ) a + S1x1024.size a ≤ S16x1024.size a)
    (h8 : ∀ a, (![8, 0] : Fin 2 → ℕ) a + S1x1024.size a ≤ S16x1024.size a)
    (h9 : ∀ a, (![9, 0] : Fin 2 → ℕ) a + S1x1024.size a ≤ S16x1024.size a)
    (h10 : ∀ a, (![10, 0] : Fin 2 → ℕ) a + S1x1024.size a ≤ S16x1024.size a)
    (h11 : ∀ a, (![11, 0] : Fin 2 → ℕ) a + S1x1024.size a ≤ S16x1024.size a)
    (h12 : ∀ a, (![12, 0] : Fin 2 → ℕ) a + S1x1024.size a ≤ S16x1024.size a)
    (h13 : ∀ a, (![13, 0] : Fin 2 → ℕ) a + S1x1024.size a ≤ S16x1024.size a)
    (h14 : ∀ a, (![14, 0] : Fin 2 → ℕ) a + S1x1024.size a ≤ S16x1024.size a)
    (h15 : ∀ a, (![15, 0] : Fin 2 → ℕ) a + S1x1024.size a ≤ S16x1024.size a)
    (hp0 : ∀ x, p0 x = X (ix3 (0 : Fin 16) (LastRow.step (l (ix1 (0 : Fin 16)))) (x 1)))
    (hp1 : ∀ x, p1 x = X (ix3 (1 : Fin 16) (LastRow.step (l (ix1 (1 : Fin 16)))) (x 1)))
    (hp2 : ∀ x, p2 x = X (ix3 (2 : Fin 16) (LastRow.step (l (ix1 (2 : Fin 16)))) (x 1)))
    (hp3 : ∀ x, p3 x = X (ix3 (3 : Fin 16) (LastRow.step (l (ix1 (3 : Fin 16)))) (x 1)))
    (hp4 : ∀ x, p4 x = X (ix3 (4 : Fin 16) (LastRow.step (l (ix1 (4 : Fin 16)))) (x 1)))
    (hp5 : ∀ x, p5 x = X (ix3 (5 : Fin 16) (LastRow.step (l (ix1 (5 : Fin 16)))) (x 1)))
    (hp6 : ∀ x, p6 x = X (ix3 (6 : Fin 16) (LastRow.step (l (ix1 (6 : Fin 16)))) (x 1)))
    (hp7 : ∀ x, p7 x = X (ix3 (7 : Fin 16) (LastRow.step (l (ix1 (7 : Fin 16)))) (x 1)))
    (hp8 : ∀ x, p8 x = X (ix3 (8 : Fin 16) (LastRow.step (l (ix1 (8 : Fin 16)))) (x 1)))
    (hp9 : ∀ x, p9 x = X (ix3 (9 : Fin 16) (LastRow.step (l (ix1 (9 : Fin 16)))) (x 1)))
    (hp10 : ∀ x, p10 x = X (ix3 (10 : Fin 16) (LastRow.step (l (ix1 (10 : Fin 16)))) (x 1)))
    (hp11 : ∀ x, p11 x = X (ix3 (11 : Fin 16) (LastRow.step (l (ix1 (11 : Fin 16)))) (x 1)))
    (hp12 : ∀ x, p12 x = X (ix3 (12 : Fin 16) (LastRow.step (l (ix1 (12 : Fin 16)))) (x 1)))
    (hp13 : ∀ x, p13 x = X (ix3 (13 : Fin 16) (LastRow.step (l (ix1 (13 : Fin 16)))) (x 1)))
    (hp14 : ∀ x, p14 x = X (ix3 (14 : Fin 16) (LastRow.step (l (ix1 (14 : Fin 16)))) (x 1)))
    (hp15 : ∀ x, p15 x = X (ix3 (15 : Fin 16) (LastRow.step (l (ix1 (15 : Fin 16)))) (x 1))) :
    (oW).view.writes (Elt F) fo
      [⟨Rect.unit (s := S16x1024) ![15, 0] S1x1024.size h15, p15⟩,
        ⟨Rect.unit (s := S16x1024) ![14, 0] S1x1024.size h14, p14⟩,
        ⟨Rect.unit (s := S16x1024) ![13, 0] S1x1024.size h13, p13⟩,
        ⟨Rect.unit (s := S16x1024) ![12, 0] S1x1024.size h12, p12⟩,
        ⟨Rect.unit (s := S16x1024) ![11, 0] S1x1024.size h11, p11⟩,
        ⟨Rect.unit (s := S16x1024) ![10, 0] S1x1024.size h10, p10⟩,
        ⟨Rect.unit (s := S16x1024) ![9, 0] S1x1024.size h9, p9⟩,
        ⟨Rect.unit (s := S16x1024) ![8, 0] S1x1024.size h8, p8⟩,
        ⟨Rect.unit (s := S16x1024) ![7, 0] S1x1024.size h7, p7⟩,
        ⟨Rect.unit (s := S16x1024) ![6, 0] S1x1024.size h6, p6⟩,
        ⟨Rect.unit (s := S16x1024) ![5, 0] S1x1024.size h5, p5⟩,
        ⟨Rect.unit (s := S16x1024) ![4, 0] S1x1024.size h4, p4⟩,
        ⟨Rect.unit (s := S16x1024) ![3, 0] S1x1024.size h3, p3⟩,
        ⟨Rect.unit (s := S16x1024) ![2, 0] S1x1024.size h2, p2⟩,
        ⟨Rect.unit (s := S16x1024) ![1, 0] S1x1024.size h1, p1⟩,
        ⟨Rect.unit (s := S16x1024) ![0, 0] S1x1024.size h0, p0⟩]
      = LastRow.lastRows X l := by
  have h : ∀ y, (oW).view.read (Elt F) ((oW).view.writes (Elt F) fo
      [⟨Rect.unit (s := S16x1024) ![15, 0] S1x1024.size h15, p15⟩,
        ⟨Rect.unit (s := S16x1024) ![14, 0] S1x1024.size h14, p14⟩,
        ⟨Rect.unit (s := S16x1024) ![13, 0] S1x1024.size h13, p13⟩,
        ⟨Rect.unit (s := S16x1024) ![12, 0] S1x1024.size h12, p12⟩,
        ⟨Rect.unit (s := S16x1024) ![11, 0] S1x1024.size h11, p11⟩,
        ⟨Rect.unit (s := S16x1024) ![10, 0] S1x1024.size h10, p10⟩,
        ⟨Rect.unit (s := S16x1024) ![9, 0] S1x1024.size h9, p9⟩,
        ⟨Rect.unit (s := S16x1024) ![8, 0] S1x1024.size h8, p8⟩,
        ⟨Rect.unit (s := S16x1024) ![7, 0] S1x1024.size h7, p7⟩,
        ⟨Rect.unit (s := S16x1024) ![6, 0] S1x1024.size h6, p6⟩,
        ⟨Rect.unit (s := S16x1024) ![5, 0] S1x1024.size h5, p5⟩,
        ⟨Rect.unit (s := S16x1024) ![4, 0] S1x1024.size h4, p4⟩,
        ⟨Rect.unit (s := S16x1024) ![3, 0] S1x1024.size h3, p3⟩,
        ⟨Rect.unit (s := S16x1024) ![2, 0] S1x1024.size h2, p2⟩,
        ⟨Rect.unit (s := S16x1024) ![1, 0] S1x1024.size h1, p1⟩,
        ⟨Rect.unit (s := S16x1024) ![0, 0] S1x1024.size h0, p0⟩]) y = LastRow.lastRows X l y := fun y =>
    View.read_writes_apply_of_pieces (v := (oW).view) (f := fo) (LastRow.lastRows X l) _
      (rows_agree X l p0 p1 p2 p3 p4 p5 p6 p7 p8 p9 p10 p11 p12 p13 p14 p15 h0 h1 h2 h3 h4 h5 h6 h7 h8 h9 h10 h11 h12 h13 h14 h15 hp0 hp1 hp2 hp3 hp4 hp5 hp6 hp7 hp8 hp9 hp10 hp11 hp12 hp13 hp14 hp15) y (rows_cover p0 p1 p2 p3 p4 p5 p6 p7 p8 p9 p10 p11 p12 p13 p14 p15 h0 h1 h2 h3 h4 h5 h6 h7 h8 h9 h10 h11 h12 h13 h14 h15 y)
  simp only [Memref.view_whole, View.read_whole] at h ⊢
  exact funext h

end Body

end Cert.Proof.WordStage

end
-- ==== Proof.WordBody.lean ====
/-
  The printed kernel's body, run once on the sequencer, for any reading of the floats.

  The lengths are copied into the scalar scratch and waited for; each of the sixteen words is read and found in range; the
  sixteen row copies are started on the one semaphore and drained by sixteen waits, the last of which hands back all sixteen
  rows at once. Nothing reads or writes the table or the result between the first start and the last wait, so the order in
  which the copies complete does not matter. At the end the table and the lengths are as they were and the result array is
  `LastRow.lastRows` of them (`WordStage.rows_value`, each row by `WordStage.carried_eq`).
-/
import proofs.«217033_g62302795596241_cont_9to1_m_195_7_alg».proof.Proof.WordStage

noncomputable section

namespace Cert.Proof.WordBody

open Cert.Kernel Cert.Kernel.Gen Cert.Proof.WordStage

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

local notation "xW" => (Memref.whole Cert.Kernel.main_arg0_scs : Memref Cert.Kernel.sig Kind.scScalar Space.hbm Cert.Kernel.S16x4096x1024 EltTy.f32)
local notation "lW" => (Memref.whole Cert.Kernel.main_arg1_scs : Memref Cert.Kernel.sig Kind.scScalar Space.hbm Cert.Kernel.S16 EltTy.i32)
local notation "oW" => (Memref.whole Cert.Kernel.main_v0_scs : Memref Cert.Kernel.sig Kind.scScalar Space.hbm Cert.Kernel.S16x1024 EltTy.f32)
local notation "sW" => (Memref.whole Cert.Kernel.cc0_scratch0 : Memref Cert.Kernel.sig Kind.scScalar Space.smem Cert.Kernel.S16 EltTy.i32)

variable [FloatOps F] (d : Dev nD)

/-- The kernel on the sequencer, from start to end: the lengths staged and waited for; sixteen words read, each in range;
    sixteen copies started on one semaphore and drained by sixteen waits; the table and the lengths back unchanged and the
    result array at `lastRows`. -/
theorem body (hF : (K (F := F)).Facts) (c : Fin (grid0.bound 0)) (hpre : LensOK m d) (O : CellTallies nD τ sig (HIx 1)) (W : Waits sig (HIx 1)) (hO : ∀ g, O g none = 0) :
    iprop(levAts (K (F := F)).L (K (F := F)).lev ∗ emp ∗ given m d
        ∗ scopedBufs (Sq d c) ∗ scopedSems0 (Sq d c) ∗ owes (Sq d c) O W)
      ⊢ wp frame (wpE (defs₀ (F := F)) 𝒱₀ (Sq d c) none) Set.univ
          (cc0__body (coordsS c) xW (Memref.isWhole_whole _) lW (Memref.isWhole_whole _) oW (Memref.isWhole_whole _) sW (Memref.isWhole_whole _) cc0_scratch1 cc0_scoped0)
          fun _ => iprop(back m d ∗ scopedBufs (Sq d c) ∗ scopedSems0 (Sq d c) ∗ ∃ W', ⌜∀ p ∈ W', p ∈ W ∨ p.2 = none⌝ ∗ owes (Sq d c) O W') := by
  have plan : Transfers.BatchOf (Sq d c) (SemLoc.dma (sig := sig) cc0_scratch1.sem) 16 (windows := true) := trivial
  unfold given
  iintro ⟨#Hlv, -, ⟨Hx, Hl, %fo, Ho⟩, Hsb, Hss, HO⟩
  ihave Hsb' := ((K (F := F)).scopedBufs_S_elim hF d (c.castLE hcore0)) $$ Hsb
  icases Hsb' with ⟨Hob, Hsubb⟩
  ihave Hob' := (Entails.of_eq (ownBufs_S (F := F) d (c.castLE hcore0))) $$ Hob
  icases Hob' with ⟨⟨%fs, Hs⟩, Hrestb⟩
  ihave Hss' := (SparseCore.Cfg.scopedSems0_S_elim (Val := Elt F) d (c.castLE hcore0)) $$ Hss
  icases Hss' with ⟨Hown, Hsubs⟩
  ihave Hown' := (Entails.of_eq (ownSems0_S (F := F) d (c.castLE hcore0))) $$ Hown
  icases Hown' with ⟨HsemA, HsemB, Hrest⟩
  ihave Hmw := ((K (F := F)).mayWaits_none (thr := Sq d c) hO) $$ Hlv
  ihave Hx' := (Entails.of_eq (pts_x (F := F) d (c.castLE hcore0) _).symm) $$ Hx
  ihave Hl' := (Entails.of_eq (pts_l (F := F) d (c.castLE hcore0) _).symm) $$ Hl
  ihave Ho' := (Entails.of_eq (pts_o (F := F) d (c.castLE hcore0) _).symm) $$ Ho
  ihave Hs' := (Entails.of_eq (pts_s (F := F) d (c.castLE hcore0) _).symm) $$ Hs
  sl_unfold [cc0__body]
  sl_exec_parts (disch := first
      | exact chk1_ok m d hpre c fs _ _
      | exact chk2_ok m d hpre c fs _ _
      | exact chk3_ok m d hpre c fs _ _
      | exact chk4_ok m d hpre c fs _ _
      | exact chk5_ok m d hpre c fs _ _
      | exact chk6_ok m d hpre c fs _ _
      | exact chk7_ok m d hpre c fs _ _
      | exact chk8_ok m d hpre c fs _ _
      | exact chk9_ok m d hpre c fs _ _
      | exact chk10_ok m d hpre c fs _ _
      | exact chk11_ok m d hpre c fs _ _
      | exact chk12_ok m d hpre c fs _ _
      | exact chk13_ok m d hpre c fs _ _
      | exact chk14_ok m d hpre c fs _ _
      | exact chk15_ok m d hpre c fs _ _
      | exact chk16_ok m d hpre c fs _ _)
  sl_step
  unfold back
  isplitl [Hx' Hl' Ho']
  · isplitl [Hx']; · iapply (Entails.of_eq (pts_x (F := F) d _ _)); iexact Hx'
    isplitl [Hl']; · iapply (Entails.of_eq (pts_l (F := F) d _ _)); iexact Hl'
    iapply (Entails.of_eq (pts_o (F := F) d (c.castLE hcore0) _))
    ihave Ho2 := (Entails.of_eq (congrArg (fun f => ((oW).view.loc (S d (c.castLE hcore0)) ↦{fullShare} f : sProp 𝕄))
      (rows_value (F := F) (m (xLoc d)) (m (lLoc d)) fo _ _ _ _ _ _ _ _ _ _ _ _ _ _ _ _ _ _ _ _ _ _ _ _ _ _ _ _ _ _ _ _ ?hp0 ?hp1 ?hp2 ?hp3 ?hp4 ?hp5 ?hp6 ?hp7 ?hp8 ?hp9 ?hp10 ?hp11 ?hp12 ?hp13 ?hp14 ?hp15))) $$ Ho'
    case hp0 => exact fun x => carried_eq m d hpre c fs 0 (by decide) _ _ _ _ _ x
    case hp1 => exact fun x => carried_eq m d hpre c fs 1 (by decide) _ _ _ _ _ x
    case hp2 => exact fun x => carried_eq m d hpre c fs 2 (by decide) _ _ _ _ _ x
    case hp3 => exact fun x => carried_eq m d hpre c fs 3 (by decide) _ _ _ _ _ x
    case hp4 => exact fun x => carried_eq m d hpre c fs 4 (by decide) _ _ _ _ _ x
    case hp5 => exact fun x => carried_eq m d hpre c fs 5 (by decide) _ _ _ _ _ x
    case hp6 => exact fun x => carried_eq m d hpre c fs 6 (by decide) _ _ _ _ _ x
    case hp7 => exact fun x => carried_eq m d hpre c fs 7 (by decide) _ _ _ _ _ x
    case hp8 => exact fun x => carried_eq m d hpre c fs 8 (by decide) _ _ _ _ _ x
    case hp9 => exact fun x => carried_eq m d hpre c fs 9 (by decide) _ _ _ _ _ x
    case hp10 => exact fun x => carried_eq m d hpre c fs 10 (by decide) _ _ _ _ _ x
    case hp11 => exact fun x => carried_eq m d hpre c fs 11 (by decide) _ _ _ _ _ x
    case hp12 => exact fun x => carried_eq m d hpre c fs 12 (by decide) _ _ _ _ _ x
    case hp13 => exact fun x => carried_eq m d hpre c fs 13 (by decide) _ _ _ _ _ x
    case hp14 => exact fun x => carried_eq m d hpre c fs 14 (by decide) _ _ _ _ _ x
    case hp15 => exact fun x => carried_eq m d hpre c fs 15 (by decide) _ _ _ _ _ x
    iexact Ho2
  isplitl [Hs' Hrestb Hsubb]
  · iapply ((K (F := F)).scopedBufs_S_intro hF d (c.castLE hcore0))
    isplitl [Hs' Hrestb]
    · rw [ownBufs_S]
      isplitl [Hs']
      · iexists _; iapply (Entails.of_eq (pts_s (F := F) d (c.castLE hcore0) _)); iexact Hs'
      · iexact Hrestb
    · iexact Hsubb
  isplitl [HsemA HsemB Hrest Hsubs]
  · iapply (SparseCore.Cfg.scopedSems0_S_intro (Val := Elt F) d (c.castLE hcore0))
    isplitl [HsemA HsemB Hrest]
    · rw [ownSems0_S]
      isplitl [HsemA]; · iexact HsemA
      isplitl [HsemB]; · iexact HsemB
      iexact Hrest
    · iexact Hsubs
  iexists _; isplitr
  rotate_left
  · iexact HO
  · ipureintro; intro p hp
    repeat (rcases Finset.mem_insert.mp hp with hp | hp; exact .inr (hp ▸ rfl))
    exact .inl hp

end Cert.Proof.WordBody

end
-- ==== Proof.WordLaunch.lean ====
/-
  The printed kernel launched: from the body's run on the one sequencer to the run of the whole device.

  @main on the TensorCore is one call of the SparseCore kernel; of the two sequencers and thirty-two tiles only sequencer 0 is in
  the call's grid. The call hands it the table, the lengths and the result array and takes them back with the result filled; the
  kernel signals nobody but itself. The launch theorem gives: every weakly fair execution of all the threads ends, nothing
  faults, the table and the lengths end unchanged (and the result array at `LastRow.lastRows` of them) — provided every length
  lies in 1 … 4096 (`run_main`).
-/
import proofs.«217033_g62302795596241_cont_9to1_m_195_7_alg».proof.Proof.WordBody

noncomputable section

namespace Cert.Proof.WordLaunch

open Cert.Kernel Cert.Kernel.Gen Cert.Proof.WordStage Cert.Proof.WordBody

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.Kernel.main_arg0_scs : Memref Cert.Kernel.sig Kind.scScalar Space.hbm Cert.Kernel.S16x4096x1024 EltTy.f32)
local notation "lW" => (Memref.whole Cert.Kernel.main_arg1_scs : Memref Cert.Kernel.sig Kind.scScalar Space.hbm Cert.Kernel.S16 EltTy.i32)
local notation "oW" => (Memref.whole Cert.Kernel.main_v0_scs : Memref Cert.Kernel.sig Kind.scScalar Space.hbm Cert.Kernel.S16x1024 EltTy.f32)
local notation "sW" => (Memref.whole Cert.Kernel.cc0_scratch0 : Memref Cert.Kernel.sig Kind.scScalar Space.smem Cert.Kernel.S16 EltTy.i32)

variable [FloatOps F]

/-! ## What the one call carries -/

instance given_storable (d : Dev nD) : BI.Storable (upEmb : UEmb _ 𝕄) (given m d) := by unfold given; infer_instance
instance back_storable (d : Dev nD) : BI.Storable (upEmb : UEmb _ 𝕄) (back m d) := by unfold back; infer_instance

/-- The call's payloads: the three arrays to the one SparseCore, and back with the result filled; nothing else. -/
def P : (K (F := F)).Pay (nD := nD) (Val := Elt F) (Name := ℕ) (U := UU) where
  st := fun _ d _ => given m d
  dn := fun _ d _ => back m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligation -/

theorem defs₀_scalar (c : Fin τ.nSC) :
    defs₀ (F := F) (.scScalar c) 0 ()
      = SparseCore.onCore hcore0 (fun c => cc0__body (coordsS c) xW (Memref.isWhole_whole _) lW (Memref.isWhole_whole _) oW (Memref.isWhole_whole _) sW (Memref.isWhole_whole _) cc0_scratch1 cc0_scoped0) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The scalar call's obligation: the one sequencer runs `body`. -/
theorem scalarObl (hpre : ∀ d, LensOK m d) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ given m d ∗ _) ⊢ wp _ _ _ _ (fun _ => iprop(back m d ∗ _))
  match c with
  | ⟨0, h⟩ => exact (body m d facts ⟨0, h⟩ (hpre d) O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore: the one call -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (lLoc d ↦{fullShare} W main_arg1) ∗ (oLoc d ↦{fullShare} W main_v0)) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = given m d := by
  show (bigSep (Finset.univ : Finset (Fin 1)) fun _ => given m d) = _
  rw [show (Finset.univ : Finset (Fin 1)) = {0} by decide, bigSep_singleton]
theorem dn0_eq (d : Dev nD) : (bigSep Finset.univ fun c : Fin ((K (F := F)).nCore 0) => (P m).dn 0 d c) = back m d := by
  show (bigSep (Finset.univ : Finset (Fin 1)) fun _ => back m d) = _
  rw [show (Finset.univ : Finset (Fin 1)) = {0} by decide, bigSep_singleton]

/-- What @main leaves the claim. -/
abbrev FIN (d : Dev nD) : sProp 𝕄 := back m d

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hl, Ho⟩, -, -⟩, -⟩
  iapply ((K (F := F)).wp_run (D (F := F)) 𝒱 (EH := EH) (P := P m) κ d 0) $$ [Hst Hx Hl Ho]
  isplitr; · iexact Hctx
  isplitl [Hst]; · iexact Hst
  isplitl [Hx Hl Ho]
  · rw [st0_eq]; unfold given
    isplitl [Hx]; · iexact Hx
    isplitl [Hl]; · iexact Hl
    iexists _; iexact Ho
  iintro ⟨Hst, Hdn⟩
  ihave Hdn' := (Entails.of_eq (dn0_eq m d)) $$ Hdn
  imodintro
  isplitl [Hst]; · iexact Hst
  iexact Hdn'

/-- The final memory, read through what @main leaves. -/
def fq (d : Dev nD) (s' : Phys nD τ sig (Elt F)) : Prop :=
  s'.mem.mem (oLoc d) = LastRow.lastRows (m (xLoc d)) (m (lLoc d)) ∧ s'.mem.mem (xLoc d) = m (xLoc d) ∧ s'.mem.mem (lLoc d) = m (lLoc d)

theorem hfin (d : Dev nD) (s' : Phys nD τ sig (Elt F)) : iprop(FIN m d ∗ SI s') ⊢ (⌜fq m d s'⌝ : sProp 𝕄) := by
  unfold FIN back
  iintro ⟨⟨Hx, Hl, Ho⟩, HSI⟩
  icombine HSI Hx gives %hx
  icombine HSI Hl gives %hl
  icombine HSI Ho gives %ho
  ipureintro
  exact ⟨funext fun i => ho i (Finset.mem_univ i), funext fun i => hx i (Finset.mem_univ i), funext fun i => hl i (Finset.mem_univ i)⟩

/-! ## The program's run -/

def QC : PUnit × MemSt nD τ sig (Elt F) → Prop := fun r => ∀ c : Dev nD,
  r.2.mem (oLoc c) = LastRow.lastRows (m (xLoc c)) (m (lLoc c)) ∧ r.2.mem (xLoc c) = m (xLoc c) ∧ r.2.mem (lLoc c) = m (lLoc c)

/-- Every weakly fair execution of the device's threads ends, faulting nowhere, with the result array at `lastRows` of the
    table and the lengths, both unchanged — given that every length lies in 1 … 4096. -/
theorem run_main [∀ e, Nonempty (Elt F e)] (hpre : ∀ d, LensOK m d) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m hpre)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h => h)

end Cert.Proof.WordLaunch

end
-- ==== Proof.lean ====
/-
  The certificate: the kernel keeps, for each of 16 sequences, the last valid time step of a table — and so does the reference.

  The table `x` is 16 × 4096 × 1024 numbers and `l` gives 16 lengths; the precondition says every entry of `x` is finite and
  every length lies in 1 … 4096 (only the second part is ever used: both programs merely move entries of `x`). The result is
  `LastRow.lastRows x l`, row `b` of which is `x (b, l b - 1, ·)`.
    * The kernel: one SparseCore sequencer stages the lengths in its scalar memory, then starts sixteen row copies on one
      semaphore and waits for all of them; no access falls between the first start and the last wait, so the result does
      not depend on the order in which the copies land (`IdealLaunch.run_main`; over the printed program,
      `WordLaunch.run_main`). Its three frame claims are these runs with the result's value dropped.
    * The reference: a gather along the time axis at `l b - 1`, whose in-range marks are all on and whose clamp is idle under
      the precondition (`RefValue.ref_is_lastRows`, over the generated run of its operations).
    * `preserves`: the ideal pass rewrote nothing in this kernel, so there is nothing to state.
    * `algebraic`: both runs end with the result array at `lastRows` of the same table and lengths.
-/
import proofs.«217033_g62302795596241_cont_9to1_m_195_7_alg».proof.Defs
import proofs.«217033_g62302795596241_cont_9to1_m_195_7_alg».proof.Proof.Gen.Kernel
import proofs.«217033_g62302795596241_cont_9to1_m_195_7_alg».proof.Proof.Gen.Kernel.Skeleton
import proofs.«217033_g62302795596241_cont_9to1_m_195_7_alg».proof.Proof.Gen.KernelIdeal
import proofs.«217033_g62302795596241_cont_9to1_m_195_7_alg».proof.Proof.Gen.KernelIdeal.Skeleton
import proofs.«217033_g62302795596241_cont_9to1_m_195_7_alg».proof.Proof.Gen.ReferenceIdeal
import proofs.«217033_g62302795596241_cont_9to1_m_195_7_alg».proof.Proof.Gen.Pre_input_domain
import proofs.«217033_g62302795596241_cont_9to1_m_195_7_alg».proof.Proof.Gen.ReferenceIdeal.Run
import proofs.«217033_g62302795596241_cont_9to1_m_195_7_alg».proof.Proof.Gen.ReferenceIdeal.Read
import proofs.«217033_g62302795596241_cont_9to1_m_195_7_alg».proof.Proof.Domain
import proofs.«217033_g62302795596241_cont_9to1_m_195_7_alg».proof.Proof.RefValue
import proofs.«217033_g62302795596241_cont_9to1_m_195_7_alg».proof.Proof.IdealLaunch
import proofs.«217033_g62302795596241_cont_9to1_m_195_7_alg».proof.Proof.WordLaunch
import Idealize.ShloMosaic.Adequacy
import Idealize.ShloMosaic.Init

noncomputable section

namespace Cert.Proof

open Idealize.ShloMosaic Idealize.SL.Sem

/-- The printed kernel runs to the end, faults nowhere and leaves the table and the lengths as they were. -/
theorem frame_kernel : Cert.frame_Kernel (hKernel := Cert.Kernel.Gen.facts) (hPre_input_domain := Cert.Pre_input_domain.Gen.facts) :=
  fun m ρ hpre =>
    (θ_run Cert.Kernel.defs _ _).mono (fun _ h c => ⟨(h c).2.1, (h c).2.2⟩)
      (Cert.Proof.WordLaunch.run_main (F := Bits) m ρ (fun d j => Cert.Proof.Domain.lens_range _ _ (hpre d) j))

/-- So does the idealized kernel. -/
theorem frame_kernelIdeal : Cert.frame_KernelIdeal (hKernelIdeal := Cert.KernelIdeal.Gen.facts) (hPre_input_domain := Cert.Pre_input_domain.Gen.facts) :=
  fun m ρ hpre =>
    (θ_run Cert.KernelIdeal.defs _ _).mono (fun _ h c => ⟨(h c).2.1, (h c).2.2⟩)
      (Cert.Proof.IdealLaunch.run_main (F := Ideal) m ρ (fun d j => Cert.Proof.Domain.lens_range _ _ (hpre d) j))

/-- The reference's run, its result's value dropped. -/
theorem frame_reference : Cert.frame_ReferenceIdeal (hReferenceIdeal := Cert.ReferenceIdeal.Gen.facts) (hPre_input_domain := Cert.Pre_input_domain.Gen.facts) :=
  fun m ρ _ =>
    (θ_run Cert.ReferenceIdeal.defs _ _).mono (fun _ h c => (h c).2) (Cert.ReferenceIdeal.Value.run (F := Ideal) m ρ)

/-- Both idealized programs, from memories that agree on the table and the lengths, end with the result array at each
    sequence's last valid step. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  refine ⟨fun c => LastRow.lastRows (m (Cert.Proof.IdealStage.xLoc c)) (m (Cert.Proof.IdealStage.lLoc c)), ?_, ?_⟩
  · exact (θ_run Cert.KernelIdeal.defs _ _).mono (fun _ h c => h c)
      (Cert.Proof.IdealLaunch.run_main (F := Ideal) m ρ (fun d j => Cert.Proof.Domain.lens_range _ _ (hpre d) j))
  · refine (θ_run Cert.ReferenceIdeal.defs _ _).mono (fun _ h c => ⟨(h c).1.trans ?_, (h c).2⟩)
      (Cert.ReferenceIdeal.Value.run (F := Ideal) m' ρ')
    show Cert.ReferenceIdeal.Read.val_main_v4 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = _
    rw [(hagree c).1, (hagree c).2]
    exact Cert.ReferenceIdeal.RefValue.ref_is_lastRows _ (fun j => Cert.Proof.Domain.lens_range _ _ (hpre c) j) _

theorem claim : Cert.Claim :=
  ⟨Cert.Kernel.Gen.facts, Cert.KernelIdeal.Gen.facts, Cert.ReferenceIdeal.Gen.facts, Cert.Pre_input_domain.Gen.facts,
    frame_kernel, frame_kernelIdeal, frame_reference, trivial, algebraic⟩

end Cert.Proof

end
